-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : FVec F S50000x128 .f32) (main_arg2 : IVec S2x640000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S640000x128 : Shape := ⟨2, ![640000, 128]⟩
abbrev S5000x128 : Shape := ⟨2, ![5000, 128]⟩
abbrev S1x128 : Shape := ⟨2, ![1, 128]⟩

abbrev nBuf : Space → Nat
  | .hbm => 102
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x640000, .i32⟩
  | .hbm, ⟨3, _⟩ => ⟨S128x128, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S50000, .f32⟩
  | .hbm, ⟨13, _⟩ => ⟨S640000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000, .f32⟩
  | .hbm, ⟨43, _⟩ => ⟨S640000, .f32⟩
  | .hbm, ⟨44, _⟩ => ⟨S50000x128, .i1⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .i1⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .i1⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000, .f32⟩
  | .hbm, ⟨63, _⟩ => ⟨S640000x1, .i32⟩
  | .hbm, ⟨64, _⟩ => ⟨S50000, .f32⟩
  | .hbm, ⟨65, _⟩ => ⟨S50000x1, .f32⟩
  | .hbm, ⟨66, _⟩ => ⟨S640000x1, .f32⟩
  | .hbm, ⟨67, _⟩ => ⟨S_, .i32⟩
  | .hbm, ⟨68, _⟩ => ⟨S640000, .i32⟩
  | .hbm, ⟨69, _⟩ => ⟨S640000, .i1⟩
  | .hbm, ⟨70, _⟩ => ⟨S_, .i32⟩
  | .hbm, ⟨71, _⟩ => ⟨S640000, .i32⟩
  | .hbm, ⟨72, _⟩ => ⟨S640000, .i32⟩
  | .hbm, ⟨73, _⟩ => ⟨S640000, .i32⟩
  | .hbm, ⟨74, _⟩ => ⟨S640000x1, .i32⟩
  | .hbm, ⟨75, _⟩ => ⟨S640000x128, .f32⟩
  | .hbm, ⟨76, _⟩ => ⟨S640000x128, .f32⟩
  | .hbm, ⟨77, _⟩ => ⟨S640000x128, .f32⟩
  | .hbm, ⟨78, _⟩ => ⟨S_, .f32⟩
  | .hbm, ⟨79, _⟩ => ⟨S50000x128, .f32⟩
  | .hbm, ⟨80, _⟩ => ⟨S640000x1, .i32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S640000x1, .f32⟩
  | .hbm, ⟨85, _⟩ => ⟨S_, .i32⟩
  | .hbm, ⟨86, _⟩ => ⟨S640000, .i32⟩
  | .hbm, ⟨87, _⟩ => ⟨S640000, .i1⟩
  | .hbm, ⟨88, _⟩ => ⟨S_, .i32⟩
  | .hbm, ⟨89, _⟩ => ⟨S640000, .i32⟩
  | .hbm, ⟨90, _⟩ => ⟨S640000, .i32⟩
  | .hbm, ⟨91, _⟩ => ⟨S640000, .i32⟩
  | .hbm, ⟨92, _⟩ => ⟨S640000x1, .i32⟩
  | .hbm, ⟨93, _⟩ => ⟨S640000x128, .f32⟩
  | .hbm, ⟨94, _⟩ => ⟨S640000x128, .f32⟩
  | .hbm, ⟨95, _⟩ => ⟨S640000x128, .f32⟩
  | .hbm, ⟨96, _⟩ => ⟨S_, .f32⟩
  | .hbm, ⟨97, _⟩ => ⟨S50000x128, .f32⟩
  | .hbm, ⟨98, _⟩ => ⟨S640000x1, .i32⟩
  | .hbm, ⟨99, _⟩ => ⟨S50000x128, .f32⟩
  | .hbm, ⟨100, _⟩ => ⟨S128x128, .f32⟩
  | .hbm, ⟨101, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_v0 : Ref sig .tc := ⟨.hbm, 44, rfl⟩
abbrev main_call1_cst : Ref sig .tc := ⟨.hbm, 45, rfl⟩
abbrev main_call1_call0_v0 : Ref sig .tc := ⟨.hbm, 46, rfl⟩
abbrev main_call1_v1 : Ref sig .tc := ⟨.hbm, 47, rfl⟩
abbrev main_call1_cst_0 : Ref sig .tc := ⟨.hbm, 48, rfl⟩
abbrev main_call1_v2 : Ref sig .tc := ⟨.hbm, 49, rfl⟩
abbrev main_call1_v3 : Ref sig .tc := ⟨.hbm, 50, rfl⟩
abbrev main_call1_cst_1 : Ref sig .tc := ⟨.hbm, 51, rfl⟩
abbrev main_call1_call1_v0 : Ref sig .tc := ⟨.hbm, 52, rfl⟩
abbrev main_call1_v4 : Ref sig .tc := ⟨.hbm, 53, rfl⟩
abbrev main_call1_cst_2 : Ref sig .tc := ⟨.hbm, 54, rfl⟩
abbrev main_call1_v5 : Ref sig .tc := ⟨.hbm, 55, rfl⟩
abbrev main_call1_v6 : Ref sig .tc := ⟨.hbm, 56, rfl⟩
abbrev main_call1_cst_3 : Ref sig .tc := ⟨.hbm, 57, rfl⟩
abbrev main_call1_call2_v0 : Ref sig .tc := ⟨.hbm, 58, rfl⟩
abbrev main_v28 : Ref sig .tc := ⟨.hbm, 59, rfl⟩
abbrev main_v29 : Ref sig .tc := ⟨.hbm, 60, rfl⟩
abbrev main_cst_7 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_8 : Ref sig .tc := ⟨.hbm, 67, rfl⟩
abbrev main_v35 : Ref sig .tc := ⟨.hbm, 68, rfl⟩
abbrev main_v36 : Ref sig .tc := ⟨.hbm, 69, rfl⟩
abbrev main_c_9 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_10 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_11 : Ref sig .tc := ⟨.hbm, 85, rfl⟩
abbrev main_v50 : Ref sig .tc := ⟨.hbm, 86, rfl⟩
abbrev main_v51 : Ref sig .tc := ⟨.hbm, 87, rfl⟩
abbrev main_c_12 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_13 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S640000x1_S640000x128_0_1 : S640000x1.BroadcastsInDim S640000x128 (![0, 1] : Fin 2 → Fin S640000x128.rank)
  bcast_S50000x1_S50000x128_0_1 : S50000x1.BroadcastsInDim S50000x128 (![0, 1] : Fin 2 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v48) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v61) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v62) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v63) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S640000x128 : Shape := ⟨2, ![640000, 128]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x640000, .i32⟩
  | .hbm, ⟨3, _⟩ => ⟨S128x128, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S50000, .f32⟩
  | .hbm, ⟨13, _⟩ => ⟨S640000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000, .f32⟩
  | .hbm, ⟨43, _⟩ => ⟨S640000, .f32⟩
  | .hbm, ⟨44, _⟩ => ⟨S50000x128, .i1⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .i1⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .i1⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000, .f32⟩
  | .hbm, ⟨62, _⟩ => ⟨S640000x1, .i32⟩
  | .hbm, ⟨63, _⟩ => ⟨S50000, .f32⟩
  | .hbm, ⟨64, _⟩ => ⟨S50000x1, .f32⟩
  | .hbm, ⟨65, _⟩ => ⟨S50000x128, .f32⟩
  | .hbm, ⟨66, _⟩ => ⟨S640000x1, .f32⟩
  | .hbm, ⟨67, _⟩ => ⟨S_, .i32⟩
  | .hbm, ⟨68, _⟩ => ⟨S640000, .i32⟩
  | .hbm, ⟨69, _⟩ => ⟨S640000, .i1⟩
  | .hbm, ⟨70, _⟩ => ⟨S_, .i32⟩
  | .hbm, ⟨71, _⟩ => ⟨S640000, .i32⟩
  | .hbm, ⟨72, _⟩ => ⟨S640000, .i32⟩
  | .hbm, ⟨73, _⟩ => ⟨S640000, .i32⟩
  | .hbm, ⟨74, _⟩ => ⟨S640000x1, .i32⟩
  | .hbm, ⟨75, _⟩ => ⟨S640000x128, .f32⟩
  | .hbm, ⟨76, _⟩ => ⟨S640000x128, .f32⟩
  | .hbm, ⟨77, _⟩ => ⟨S640000x128, .f32⟩
  | .hbm, ⟨78, _⟩ => ⟨S_, .f32⟩
  | .hbm, ⟨79, _⟩ => ⟨S50000x128, .f32⟩
  | .hbm, ⟨80, _⟩ => ⟨S640000x1, .i32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S640000x1, .f32⟩
  | .hbm, ⟨85, _⟩ => ⟨S_, .i32⟩
  | .hbm, ⟨86, _⟩ => ⟨S640000, .i32⟩
  | .hbm, ⟨87, _⟩ => ⟨S640000, .i1⟩
  | .hbm, ⟨88, _⟩ => ⟨S_, .i32⟩
  | .hbm, ⟨89, _⟩ => ⟨S640000, .i32⟩
  | .hbm, ⟨90, _⟩ => ⟨S640000, .i32⟩
  | .hbm, ⟨91, _⟩ => ⟨S640000, .i32⟩
  | .hbm, ⟨92, _⟩ => ⟨S640000x1, .i32⟩
  | .hbm, ⟨93, _⟩ => ⟨S640000x128, .f32⟩
  | .hbm, ⟨94, _⟩ => ⟨S640000x128, .f32⟩
  | .hbm, ⟨95, _⟩ => ⟨S640000x128, .f32⟩
  | .hbm, ⟨96, _⟩ => ⟨S_, .f32⟩
  | .hbm, ⟨97, _⟩ => ⟨S50000x128, .f32⟩
  | .hbm, ⟨98, _⟩ => ⟨S640000x1, .i32⟩
  | .hbm, ⟨99, _⟩ => ⟨S50000x128, .f32⟩
  | .hbm, ⟨100, _⟩ => ⟨S50000x128, .f32⟩
  | .hbm, ⟨101, _⟩ => ⟨S50000x128, .i1⟩
  | .hbm, ⟨102, _⟩ => ⟨S_, .f32⟩
  | .hbm, ⟨103, _⟩ => ⟨S50000x128, .f32⟩
  | .hbm, ⟨104, _⟩ => ⟨S50000x128, .f32⟩
  | .hbm, ⟨105, _⟩ => ⟨S_, .f32⟩
  | .hbm, ⟨106, _⟩ => ⟨S50000x128, .f32⟩
  | .hbm, ⟨107, _⟩ => ⟨S50000x128, .i1⟩
  | .hbm, ⟨108, _⟩ => ⟨S_, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S50000x128, .f32⟩
  | .hbm, ⟨113, _⟩ => ⟨S50000x128, .i1⟩
  | .hbm, ⟨114, _⟩ => ⟨S_, .f32⟩
  | .hbm, ⟨115, _⟩ => ⟨S50000x128, .f32⟩
  | .hbm, ⟨116, _⟩ => ⟨S50000x128, .f32⟩
  | .hbm, ⟨117, _⟩ => ⟨S128x128, .f32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_v0 : Ref sig .tc := ⟨.hbm, 44, rfl⟩
abbrev main_call1_cst : Ref sig .tc := ⟨.hbm, 45, rfl⟩
abbrev main_call1_call0_v0 : Ref sig .tc := ⟨.hbm, 46, rfl⟩
abbrev main_call1_v1 : Ref sig .tc := ⟨.hbm, 47, rfl⟩
abbrev main_call1_cst_0 : Ref sig .tc := ⟨.hbm, 48, rfl⟩
abbrev main_call1_v2 : Ref sig .tc := ⟨.hbm, 49, rfl⟩
abbrev main_call1_v3 : Ref sig .tc := ⟨.hbm, 50, rfl⟩
abbrev main_call1_cst_1 : Ref sig .tc := ⟨.hbm, 51, rfl⟩
abbrev main_call1_call1_v0 : Ref sig .tc := ⟨.hbm, 52, rfl⟩
abbrev main_call1_v4 : Ref sig .tc := ⟨.hbm, 53, rfl⟩
abbrev main_call1_cst_2 : Ref sig .tc := ⟨.hbm, 54, rfl⟩
abbrev main_call1_v5 : Ref sig .tc := ⟨.hbm, 55, rfl⟩
abbrev main_call1_v6 : Ref sig .tc := ⟨.hbm, 56, rfl⟩
abbrev main_call1_cst_3 : Ref sig .tc := ⟨.hbm, 57, rfl⟩
abbrev main_call1_call2_v0 : Ref sig .tc := ⟨.hbm, 58, rfl⟩
abbrev main_v28 : Ref sig .tc := ⟨.hbm, 59, rfl⟩
abbrev main_cst_7 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_8 : Ref sig .tc := ⟨.hbm, 67, rfl⟩
abbrev main_v35 : Ref sig .tc := ⟨.hbm, 68, rfl⟩
abbrev main_v36 : Ref sig .tc := ⟨.hbm, 69, rfl⟩
abbrev main_c_9 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_10 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_11 : Ref sig .tc := ⟨.hbm, 85, rfl⟩
abbrev main_v50 : Ref sig .tc := ⟨.hbm, 86, rfl⟩
abbrev main_v51 : Ref sig .tc := ⟨.hbm, 87, rfl⟩
abbrev main_c_12 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_13 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_call2_v0 : Ref sig .tc := ⟨.hbm, 101, rfl⟩
abbrev main_call2_cst : Ref sig .tc := ⟨.hbm, 102, rfl⟩
abbrev main_call2_call0_v0 : Ref sig .tc := ⟨.hbm, 103, rfl⟩
abbrev main_call2_v1 : Ref sig .tc := ⟨.hbm, 104, rfl⟩
abbrev main_call2_cst_0 : Ref sig .tc := ⟨.hbm, 105, rfl⟩
abbrev main_call2_v2 : Ref sig .tc := ⟨.hbm, 106, rfl⟩
abbrev main_call2_v3 : Ref sig .tc := ⟨.hbm, 107, rfl⟩
abbrev main_call2_cst_1 : Ref sig .tc := ⟨.hbm, 108, rfl⟩
abbrev main_call2_call1_v0 : Ref sig .tc := ⟨.hbm, 109, rfl⟩
abbrev main_call2_v4 : Ref sig .tc := ⟨.hbm, 110, rfl⟩
abbrev main_call2_cst_2 : Ref sig .tc := ⟨.hbm, 111, rfl⟩
abbrev main_call2_v5 : Ref sig .tc := ⟨.hbm, 112, rfl⟩
abbrev main_call2_v6 : Ref sig .tc := ⟨.hbm, 113, rfl⟩
abbrev main_call2_cst_3 : Ref sig .tc := ⟨.hbm, 114, rfl⟩
abbrev main_call2_call2_v0 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S640000x1_S640000x128_0_1 : S640000x1.BroadcastsInDim S640000x128 (![0, 1] : Fin 2 → Fin S640000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibAffineLayer.lean ====
/-
  An affine layer read at an index.

  A bias vector of length B, cast to a [1, B] row and broadcast to [A, B], reads at (p, q) the bias at q. Added to
  the plain product of an [A, K] and a [K, B] matrix into the zero accumulator, it gives at the ideal values and at
  (p, q) the sum over k < K of left(p, k) · right(k, q), plus the bias at q: one row of the left operand through an
  affine map.
-/
import Idealize.ShloMosaic.Lib.ValueLayout
import proofs.«131859_j56255481643188_1_alg».proof.Proof.LibMatmul2

noncomputable section

namespace Cert.Lib

open Idealize.ShloMosaic Idealize.ShloMosaic.ValueIdx

variable {A K B : ℕ} {φ₁ φ₂ : FTy} {α : Type}

/-- A `[B]` vector cast to a `[1, B]` row and broadcast to `[A, B]` reads, at `(p, q)`, the vector at `q`. -/
theorem rowBroadcast_apply (v : (⟨1, ![B]⟩ : Shape).Idx → α) (hc : (⟨1, ![B]⟩ : Shape).ShapeCasts ⟨2, ![1, B]⟩)
    (hb : (⟨2, ![1, B]⟩ : Shape).Broadcasts ⟨2, ![A, B]⟩) (p : Fin A) (q : Fin B) :
    broadcastTo ⟨2, ![A, B]⟩ (shapeCast ⟨2, ![1, B]⟩ v hc) hb (ix2 p q) = v (ix1 q) :=
  (broadcastTo_1b_ab_apply (shapeCast ⟨2, ![1, B]⟩ v hc) hb p q).trans (shapeCast_a_1a_apply v hc (0 : Fin 1) q)

/-- The product into the zero accumulator plus the broadcast bias row, at `(p, q)`, is
    `∑ k, l (p, k) * r (k, q) + v q`. -/
theorem affine_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (v : FVec Ideal ⟨1, ![B]⟩ .f32)
    (hc : (⟨1, ![B]⟩ : Shape).ShapeCasts ⟨2, ![1, B]⟩) (hb : (⟨2, ![1, B]⟩ : Shape).Broadcasts ⟨2, ![A, B]⟩)
    (p : Fin A) (q : Fin B) :
    addf (matmul (plain2 wf) none l r (constant ⟨2, ![A, B]⟩ .f32 0x00000000#32))
        (broadcastTo ⟨2, ![A, B]⟩ (shapeCast ⟨2, ![1, B]⟩ v hc) hb) (ix2 p q)
      = (∑ k : Fin K, l (ix2 p k) * r (ix2 k q)) + v (ix1 q) := by
  show matmul (plain2 wf) none l r (constant ⟨2, ![A, B]⟩ .f32 0x00000000#32) (ix2 p q)
      + broadcastTo ⟨2, ![A, B]⟩ (shapeCast ⟨2, ![1, B]⟩ v hc) hb (ix2 p q) = _
  rw [matmul2_zero_apply wf l r p q, rowBroadcast_apply v hc hb p q]

end Cert.Lib

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«131859_j56255481643188_1_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.LibHostRowCol.lean ====
/-
  A host program's two ways of spreading a vector over a matrix, read at an entry.

  jnp's `v[None, :]` against a matrix prints as two `broadcast_in_dim`s: the vector `[n]` becomes the row `[1, n]` and
  the row is repeated to `[a, n]`; `v[:, None]` likewise makes the column `[a, 1]` and repeats it to `[a, n]`. Read at
  `(r, q)` the first is the vector at `q` and the second the vector at `r`. Generic in the extents and the element type.
-/
import Idealize.ShloMosaic.Lib.Pipeline.Value
import Idealize.ShloMosaic.Lib.ValueIdx

namespace Cert.Lib

open Idealize.ShloMosaic Idealize.ShloMosaic.ValueIdx

variable {α : Type}

/-- A vector made a row and repeated down the rows reads, at `(r, q)`, the vector at `q`. -/
theorem bcast_row_rows_apply {a n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 v) (ix2 r q) = v (ix1 q) := by
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- A vector made a column and repeated along the rows reads, at `(r, q)`, the vector at `r`. -/
theorem bcast_col_cols_apply {a n : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

end Cert.Lib
-- ==== Proof.LibRatioLayer.lean ====
/-
  A masked-ratio layer read at an entry.

  Both programs end in the same dense layer. From a numerator and a denominator matrix of shape [A, K] they form the
  quotient entry by entry, pass it through `jnp.nan_to_num` (the test "r ≠ r" for a NaN, which no extended real
  passes; +∞ replaced by the largest finite f32; −∞ by the smallest), multiply the [A, K] result with a [K, B] weight
  matrix and add a bias vector of length B along the rows. On the extended reals the entry at (p, q) is therefore

      ∑ k < K, clean (num (p, k) / den (p, k)) · wt (k, q)  +  b q,

  where `clean` is the three compare-and-select steps of `nan_to_num` on one extended real. A change of float format is
  the identity on the extended reals, so the bf16 operands of a kernel's product read as the f32 values they came from.

  Two spellings are read at an entry here, generic in A, K and B: a kernel tile's (vector compare / select against a
  splat scalar, `tpu.matmul` into the zero accumulator, the bias cast to a row and broadcast), and a host program's
  (`compare` / `select` against a broadcast scalar constant, `dot_general`, the bias made a row and repeated).
  Row p of either depends only on row p of the numerator and of the denominator (`entry_congr`), which is what lets
  a kernel that walks the rows block by block be compared with a host program that computes the whole array.
-/
import Idealize.ShloMosaic.Lib.Pipeline.Value
import Idealize.ShloMosaic.Lib.ValueLayout
import proofs.«131859_j56255481643188_1_alg».proof.Proof.LibAffineLayer
import proofs.«131859_j56255481643188_1_alg».proof.Proof.LibHostDot2
import proofs.«131859_j56255481643188_1_alg».proof.Proof.LibHostRowCol

noncomputable section

namespace Cert.Ratio

open Idealize.ShloMosaic Idealize.ShloMosaic.ValueIdx

variable {A K B : ℕ}

/-- `jnp.nan_to_num` of one extended real, as both programs spell it: "r ≠ r" selects zero (never, on the extended
    reals), then +∞ is replaced by the word 0x7F7FFFFF's value and −∞ by the word 0xFF7FFFFF's. -/
def clean (r : Ideal .f32) : Ideal .f32 :=
  let r1 := Scalar.select (FloatOps.cmpf .une r r) (Scalar.ofBits .f32 0x00000000#32) r
  let r2 := Scalar.select (FloatOps.cmpf .oeq r1 (Scalar.ofBits .f32 0x7F800000#32)) (Scalar.ofBits .f32 0x7F7FFFFF#32) r1
  Scalar.select (FloatOps.cmpf .oeq r2 (Scalar.ofBits .f32 0xFF800000#32)) (Scalar.ofBits .f32 0xFF7FFFFF#32) r2

/-- The layer's entry at (p, q): the cleaned quotients of row p against column q of the weights, plus the bias at q. -/
def entry (num den : FVec Ideal ⟨2, ![A, K]⟩ .f32) (wt : FVec Ideal ⟨2, ![K, B]⟩ .f32) (b : FVec Ideal ⟨1, ![B]⟩ .f32)
    (p : Fin A) (q : Fin B) : EReal :=
  (∑ k : Fin K, clean (Ideal.div (num (ix2 p k)) (den (ix2 p k))) * wt (ix2 k q)) + b (ix1 q)

/-- The layer as one whole-array function of its four operands. -/
def layer (num den : FVec Ideal ⟨2, ![A, K]⟩ .f32) (wt : FVec Ideal ⟨2, ![K, B]⟩ .f32) (b : FVec Ideal ⟨1, ![B]⟩ .f32) :
    FVec Ideal ⟨2, ![A, B]⟩ .f32 :=
  fun i => entry num den wt b (i 0) (i 1)

theorem layer_apply (num den : FVec Ideal ⟨2, ![A, K]⟩ .f32) (wt : FVec Ideal ⟨2, ![K, B]⟩ .f32) (b : FVec Ideal ⟨1, ![B]⟩ .f32)
    (p : Fin A) (q : Fin B) : layer num den wt b (ix2 p q) = entry num den wt b p q := rfl

/-- Row p of the layer reads only row p of the numerator and of the denominator: two pairs of matrices (of possibly
    different heights) that agree on a row give the same entries along it. -/
theorem entry_congr {A' : ℕ} (num den : FVec Ideal ⟨2, ![A, K]⟩ .f32) (num' den' : FVec Ideal ⟨2, ![A', K]⟩ .f32)
    (wt : FVec Ideal ⟨2, ![K, B]⟩ .f32) (b : FVec Ideal ⟨1, ![B]⟩ .f32) (p : Fin A) (p' : Fin A') (q : Fin B)
    (hn : ∀ k : Fin K, num (ix2 p k) = num' (ix2 p' k)) (hd : ∀ k : Fin K, den (ix2 p k) = den' (ix2 p' k)) :
    entry num den wt b p q = entry num' den' wt b p' q := by
  unfold entry
  refine congrArg (· + b (ix1 q)) (Finset.sum_congr rfl fun k _ => ?_)
  rw [hn k, hd k]

/-! ## A kernel tile's spelling -/

/-- `nan_to_num` over a vector, as a kernel writes it: compares and selects against splat scalars. -/
def tileClean {s : Shape} (v : FVec Ideal s .f32) : FVec Ideal s .f32 :=
  let v7 := select (cmpf .one v v) (broadcast s (Scalar.ofBits .f32 0x00000000#32)) v
  let v11 := select (cmpf .oeq v7 (broadcast s (Scalar.ofBits .f32 0x7F800000#32))) (broadcast s (Scalar.ofBits .f32 0x7F7FFFFF#32)) v7
  select (cmpf .oeq v11 (broadcast s (Scalar.ofBits .f32 0xFF800000#32))) (broadcast s (Scalar.ofBits .f32 0xFF7FFFFF#32)) v11

/-- Entry by entry it is `clean`: the ordered and the unordered "not equal" are one predicate on the extended reals. -/
theorem tileClean_apply {s : Shape} (v : FVec Ideal s .f32) (i : s.Idx) : tileClean v i = clean (v i) := rfl

/-- A tile computing the layer — quotient, `nan_to_num`, both operands narrowed to bf16, the product into the zero
    accumulator, the bias cast to a row and broadcast — reads at (p, q) the layer's entry. -/
theorem tile_apply (wf : DotDims.WF ⟨2, ![A, K]⟩ ⟨2, ![K, B]⟩ ⟨2, ![A, B]⟩ [1] [0] [0] [1] [] [])
    (h0 : (⟨2, ![A, K]⟩ : Shape).ShapeCasts ⟨2, ![A, K]⟩) (h2 : (⟨2, ![K, B]⟩ : Shape).ShapeCasts ⟨2, ![K, B]⟩)
    (hc : (⟨1, ![B]⟩ : Shape).ShapeCasts ⟨2, ![1, B]⟩) (hb : (⟨2, ![1, B]⟩ : Shape).Broadcasts ⟨2, ![A, B]⟩)
    (hlt : FTy.bf16.bits < FTy.f32.bits)
    (x0 x1 : FVec Ideal ⟨2, ![A, K]⟩ .f32) (x2 : FVec Ideal ⟨2, ![K, B]⟩ .f32) (x3 : FVec Ideal ⟨1, ![B]⟩ .f32)
    (p : Fin A) (q : Fin B) :
    addf (matmul (Cert.Lib.plain2 wf) none
          (truncf .bf16 (tileClean (divf (shapeCast ⟨2, ![A, K]⟩ x0 h0) (shapeCast ⟨2, ![A, K]⟩ x1 h0))) hlt)
          (truncf .bf16 (shapeCast ⟨2, ![K, B]⟩ x2 h2) hlt) (constant ⟨2, ![A, B]⟩ .f32 0x00000000#32))
        (broadcastTo ⟨2, ![A, B]⟩ (shapeCast ⟨2, ![1, B]⟩ x3 hc) hb) (ix2 p q)
      = entry x0 x1 x2 x3 p q := by
  refine (Cert.Lib.affine_apply wf _ _ x3 hc hb p q).trans ?_
  rw [shapeCast_self x0 h0, shapeCast_self x1 h0, shapeCast_self x2 h2]
  rfl

/-! ## A host program's spelling -/

/-- `nan_to_num` over a host tensor: compares and selects against broadcast scalar constants. -/
def hostClean {s : Shape} (hs : (⟨0, ![]⟩ : Shape).BroadcastsInDim s (![] : Fin 0 → Fin s.rank)) (a : FVec Ideal s .f32) :
    FVec Ideal s .f32 :=
  let r1 := select (cmpf .une a a) (broadcastInDim s ![] hs (constant ⟨0, ![]⟩ .f32 0x00000000#32)) a
  let r2 := select (cmpf .oeq r1 (broadcastInDim s ![] hs (constant ⟨0, ![]⟩ .f32 0x7F800000#32)))
    (broadcastInDim s ![] hs (constant ⟨0, ![]⟩ .f32 0x7F7FFFFF#32)) r1
  select (cmpf .oeq r2 (broadcastInDim s ![] hs (constant ⟨0, ![]⟩ .f32 0xFF800000#32)))
    (broadcastInDim s ![] hs (constant ⟨0, ![]⟩ .f32 0xFF7FFFFF#32)) r2

/-- Entry by entry it is `clean`: a broadcast scalar constant reads its one value everywhere. -/
theorem hostClean_apply {s : Shape} (hs : (⟨0, ![]⟩ : Shape).BroadcastsInDim s (![] : Fin 0 → Fin s.rank))
    (a : FVec Ideal s .f32) (i : s.Idx) : hostClean hs a i = clean (a i) := rfl

/-- A host program computing the layer — quotient, `nan_to_num`, `dot_general` with the weights, the bias made a row
    and repeated down the rows — reads at (p, q) the layer's entry. -/
theorem host_apply (wf : DotDims.WF ⟨2, ![A, K]⟩ ⟨2, ![K, B]⟩ ⟨2, ![A, B]⟩ [1] [0] [0] [1] [] [])
    (hs : (⟨0, ![]⟩ : Shape).BroadcastsInDim ⟨2, ![A, K]⟩ (![] : Fin 0 → Fin 2))
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (num den : FVec Ideal ⟨2, ![A, K]⟩ .f32) (wt : FVec Ideal ⟨2, ![K, B]⟩ .f32) (b : FVec Ideal ⟨1, ![B]⟩ .f32)
    (p : Fin A) (q : Fin B) :
    addf (Host.dotGeneral (Cert.Lib.plain2 wf) none (hostClean hs (Host.divf num den)) wt)
        (broadcastInDim ⟨2, ![A, B]⟩ ![0, 1] h2 (broadcastInDim ⟨2, ![1, B]⟩ ![1] h1 b)) (ix2 p q)
      = entry num den wt b p q := by
  show Host.dotGeneral (Cert.Lib.plain2 wf) none (hostClean hs (Host.divf num den)) wt (ix2 p q)
      + broadcastInDim ⟨2, ![A, B]⟩ ![0, 1] h2 (broadcastInDim ⟨2, ![1, B]⟩ ![1] h1 b) (ix2 p q) = _
  rw [Cert.Lib.hostDot2_apply wf _ wt p q, Cert.Lib.bcast_row_rows_apply b h1 h2 p q]
  rfl

end Cert.Ratio

end
-- ==== Proof.Tile.lean ====
/-
  The kernel body's one store, read at an entry.

  At a grid point the body loads a [5000, 128] block of the numerator and of the denominator, the whole [128, 128]
  transposed weight matrix and the bias, and stores one [5000, 128] block: the masked-ratio layer of those four
  operands. At row p and column q of the block that is the layer's entry at (p, q) of the loaded blocks.
-/
import proofs.«131859_j56255481643188_1_alg».proof.Proof.Gen.KernelIdeal.Skeleton
import proofs.«131859_j56255481643188_1_alg».proof.Proof.LibRatioLayer

noncomputable section

namespace Cert.KernelIdeal.Tile

open Idealize.ShloMosaic Idealize.ShloMosaic.ValueIdx Cert.KernelIdeal Cert.KernelIdeal.Gen

/-- The stored block at (p, q) is the layer's entry at (p, q) of the four loaded operands. -/
theorem pay_apply (x0 x1 : Vec Ideal S5000x128 .f32) (x2 : Vec Ideal S128x128 .f32) (x3 : Vec Ideal S128 .f32)
    (p : Fin 5000) (q : Fin 128) :
    k0_pay1 (F := Ideal) x0 x1 x2 x3 (ix2 p q) = Cert.Ratio.entry (A := 5000) (K := 128) (B := 128) x0 x1 x2 x3 p q := by
  unfold k0_pay1
  exact Cert.Ratio.tile_apply (A := 5000) (K := 128) (B := 128)
    Facts₀.dot_S5000x128_S128x128_S5000x128_1_0_0_1_n_n_wf Facts₀.shapeCasts_S5000x128_S5000x128
    Facts₀.shapeCasts_S128x128_S128x128 Facts₀.shapeCasts_S128_S1x128 Facts₀.broadcasts_S1x128_S5000x128
    Facts₀.bitsLt_bf16_f32 x0 x1 x2 x3 p q

end Cert.KernelIdeal.Tile

end
-- ==== Proof.Whole.lean ====
/-
  From the kernel's blocks to its whole result array.

  The grid has ten points. Point t stages rows 5000·t … 5000·t + 4999 of the numerator and of the denominator, the
  whole transposed weight matrix and the whole bias, and writes back rows 5000·t … 5000·t + 4999 of the result. Row p
  of the stored block is row 5000·t + p of the masked-ratio layer of the four whole arrays, because a row of the layer
  reads only that row of the numerator and of the denominator. The ten blocks tile the 50000 rows (the point covering
  row r is r / 5000), so after the run the result array is the layer of the four arrays as the region found them.
-/
import proofs.«131859_j56255481643188_1_alg».proof.Proof.Gen.KernelIdeal.Value
import proofs.«131859_j56255481643188_1_alg».proof.Proof.Gen.KernelIdeal.Points
import proofs.«131859_j56255481643188_1_alg».proof.Proof.Tile

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-- The block index maps over the ten points: the row blocks move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ t.val < 10 :=
  (by decide +kernel : ∀ t : Fin grid0.N, _)

/-- The point covering row `r`. -/
theorem idx_onto : ∀ q0 : Fin 10, ∃ t : Fin cfg0.N, win0_4.index t (0 : Fin 2) = q0.val ∧ win0_4.index t (1 : Fin 2) = 0 :=
  (by decide +kernel : ∀ q0 : Fin 10, ∃ t : Fin grid0.N, win0_4.index t (0 : Fin 2) = q0.val ∧ win0_4.index t (1 : Fin 2) = 0)

/-- The whole result: the layer of the numerator, the denominator, the transposed weights and the bias. -/
abbrev result (num den : S50000x128.Idx → EReal) (wt : S128x128.Idx → EReal) (b : S128.Idx → EReal) : S50000x128.Idx → EReal :=
  Cert.Ratio.layer (A := 50000) (K := 128) (B := 128) num den wt b

/-- One point, over variables: blocks that are rows 5000·T … of the numerator and the denominator, the whole weights
    and the whole bias give, at row p of the stored block, row 5000·T + p of the whole result. -/
theorem point_eq (num den : S50000x128.Idx → EReal) (wt : S128x128.Idx → EReal) (b : S128.Idx → EReal)
    (x0 x1 : Vec Ideal S5000x128 .f32) (x2 : Vec Ideal S128x128 .f32) (x3 : Vec Ideal S128 .f32)
    (p : Fin 5000) (q : Fin 128) (r : Fin 50000)
    (h0 : ∀ k : Fin 128, x0 (ix2 p k) = num (ix2 r k)) (h1 : ∀ k : Fin 128, x1 (ix2 p k) = den (ix2 r k))
    (h2 : x2 = wt) (h3 : x3 = b) :
    k0_pay1 (F := Ideal) x0 x1 x2 x3 (ix2 p q) = result num den wt b (ix2 r q) := by
  subst h2 h3
  rw [Cert.KernelIdeal.Tile.pay_apply]
  exact Cert.Ratio.entry_congr (A := 5000) (A' := 50000) (K := 128) (B := 128) x0 x1 num den x2 x3 p r q h0 h1

/-- The four arrays as the region finds them, spelt as the windows name them. -/
abbrev numA (c : Dev nD) : S50000x128.Idx → EReal := V m c (Pipeline.arrRef spec0 0)
abbrev denA (c : Dev nD) : S50000x128.Idx → EReal := V m c (Pipeline.arrRef spec0 1)
abbrev wtA (c : Dev nD) : S128x128.Idx → EReal := V m c (Pipeline.arrRef spec0 2)
abbrev biasA (c : Dev nD) : S128.Idx → EReal := V m c (Pipeline.arrRef spec0 3)

/-- Row p of point `t`'s numerator block is row 5000·t + p of the numerator. -/
theorem read_num (c : Dev nD) (t : Fin cfg0.N) (p : Fin 5000) (k : Fin 128) (r : Fin 50000) (hr : r.val = t.val * 5000 + p.val) :
    iblk m c 0 t (ix2 p k) = numA m c (ix2 r k) := by
  obtain ⟨e00, e01, -⟩ := idx_facts t
  have hk : k.val < 128 := k.isLt
  unfold iblk numA
  generalize V m c (Pipeline.arrRef spec0 0) = A
  show A (((cfg0.win 0).blk t).view.emb (ix2 p k)) = A (ix2 r k)
  refine congrArg A (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row p of point `t`'s denominator block is row 5000·t + p of the denominator. -/
theorem read_den (c : Dev nD) (t : Fin cfg0.N) (p : Fin 5000) (k : Fin 128) (r : Fin 50000) (hr : r.val = t.val * 5000 + p.val) :
    iblk m c 1 t (ix2 p k) = denA m c (ix2 r k) := by
  obtain ⟨-, -, e10, e11, -⟩ := idx_facts t
  have hk : k.val < 128 := k.isLt
  unfold iblk denA
  generalize V m c (Pipeline.arrRef spec0 1) = A
  show A (((cfg0.win 1).blk t).view.emb (ix2 p k)) = A (ix2 r k)
  refine congrArg A (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- Every point's weight block is the whole transposed weight matrix. -/
theorem read_wt (c : Dev nD) (t : Fin cfg0.N) : iblk m c 2 t = wtA m c := by
  obtain ⟨-, -, -, -, e20, e21, -⟩ := idx_facts t
  unfold iblk wtA
  generalize V m c (Pipeline.arrRef spec0 2) = A
  funext y
  show A (((cfg0.win 2).blk t).view.emb y) = A y
  refine congrArg A (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Every point's bias block is the whole bias. -/
theorem read_bias (c : Dev nD) (t : Fin cfg0.N) : iblk m c 3 t = biasA m c := by
  obtain ⟨-, -, -, -, -, -, e30, -⟩ := idx_facts t
  unfold iblk biasA
  generalize V m c (Pipeline.arrRef spec0 3) = A
  funext y
  show A (((cfg0.win 3).blk t).view.emb y) = A y
  refine congrArg A (funext fun a => Fin.ext ?_)
  match a with
  | ⟨0, _⟩ => show win0_3.index t (0 : Fin 1) * 128 + 1 * (y 0).val = (y 0).val; omega

/-- Entry (p, q) of point `t`'s result block sits at row 5000·t + p, column q of the result array. -/
theorem emb_out (t : Fin cfg0.N) (p : Fin 5000) (q : Fin 128) (r : Fin 50000) (hr : r.val = t.val * 5000 + p.val) :
    ((cfg0.win 4).blk t).view.emb (ix2 p q) = ix2 r q := by
  obtain ⟨-, -, -, -, -, -, -, e40, e41, -⟩ := idx_facts t
  have hq : q.val < 128 := q.isLt
  funext a; apply Fin.ext
  match a with
  | ⟨0, _⟩ => show win0_4.index t (0 : Fin 2) * 5000 + 1 * p.val = r.val; omega
  | ⟨1, _⟩ => show win0_4.index t (1 : Fin 2) * 128 + 1 * q.val = q.val; omega

/-- One entry of what point `t` stores, over the point's four blocks. -/
theorem stored_apply (c : Dev nD) (t : Fin cfg0.N) (p : Fin 5000) (q : Fin 128) (r : Fin 50000) (hr : r.val = t.val * 5000 + p.val) :
    k0_pay1 (F := Ideal) (iblk m c 0 t) (iblk m c 1 t) (iblk m c 2 t) (iblk m c 3 t) (ix2 p q)
      = result (numA m c) (denA m c) (wtA m c) (biasA m c) (ix2 r q) :=
  point_eq (numA m c) (denA m c) (wtA m c) (biasA m c) (iblk m c 0 t) (iblk m c 1 t) (iblk m c 2 t) (iblk m c 3 t) p q r
    (fun k => read_num m c t p k r hr) (fun k => read_den m c t p k r hr) (read_wt m c t) (read_bias m c t)

/-- What point `t` writes back is block `t` of the whole result of the arrays as the region finds them. -/
theorem flushed_eq (c : Dev nD) (t : Fin cfg0.N) :
    (dats m 0 c).flushed 4 t = ((cfg0.win 4).blk t).view.read (Elt Ideal)
      (result (numA m c) (denA m c) (wtA m c) (biasA m c)) := by
  rw [Cert.KernelIdeal.Value.flushed4]
  unfold out0_4
  rw [View.canon_unit_zero hz]
  simp only [View.ld_unit_zero (S := S5000x128) hz, View.ld_unit_zero (S := S128x128) hz, View.ld_unit_zero (S := S128) hz1]
  have hT : t.val < 10 := (idx_facts t).2.2.2.2.2.2.2.2.2
  funext j
  obtain ⟨p, q, rfl⟩ : ∃ (p : Fin 5000) (q : Fin 128), j = ix2 p q := ⟨j 0, j 1, eq_ix2 j⟩
  have hp : p.val < 5000 := p.isLt
  show k0_pay1 (F := Ideal) (iblk m c 0 t) (iblk m c 1 t) (iblk m c 2 t) (iblk m c 3 t) (ix2 p q)
      = result (numA m c) (denA m c) (wtA m c) (biasA m c) (((cfg0.win 4).blk t).view.emb (ix2 p q))
  rw [emb_out t p q ⟨t.val * 5000 + p.val, by omega⟩ rfl]
  exact stored_apply m c t p q ⟨t.val * 5000 + p.val, by omega⟩ rfl

/-- An index of the result array is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v63).slice (win0_4.rect t)).set ↔ _
  rw [View.set_slice_whole, Rect.mem_set_unit]
  exact Iff.rfl

/-- Every index of the result array is in some point's block. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, q0, q1⟩ := idx_onto ⟨(i 0).val / 5000, by omega⟩
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; simp only [] at q0; omega
  | ⟨1, _⟩ => show win0_4.index t (1 : Fin 2) * 128 ≤ (i 1).val ∧ (i 1).val < win0_4.index t (1 : Fin 2) * 128 + 128; omega

/-- The result array after the run is the whole result of the arrays as the region found them. -/
theorem final (c : Dev nD) : (dats m 0 c).arrAt 4 cfg0.N = result (numA m c) (denA m c) (wtA m c) (biasA m c) :=
  (dats m 0 c).arrAt_eq_of_cover 4 (result (numA m c) (denA m c) (wtA m c) (biasA m c)) (fun t _ => flushed_eq m c t) cover

end Cert.KernelIdeal.Whole

end
-- ==== Proof.Prefix.lean ====
/-
  What both programs compute before the dense layer: the numerator and the denominator.

  From the edge list `ei` (row 0 the targets, row 1 the sources of 640000 edges over 50000 nodes):

    deg    = for each node, the number of edges whose source it is (a scatter-add of ones);
    dinv   = deg^(-1/2) where deg > 0, and 0 elsewhere;
    weight = for each edge, dinv at its target times dinv at its source (an index word below zero is first moved up
             by 50000, as jnp's indexing does, before the gather);
    rowsum = for each node, the sum of the weights of the edges whose target it is;
    spmm M = for each node, the sum over the edges into it of weight · (row of M at the edge's source);
    num    = rowsum (along the rows) · spmm (mask · nan_to_num x),      den = spmm mask.

  The kernel's program and the reference spell these with the same host operations (in a slightly different order);
  each is named here once, over the reference's shapes and dimension records, so that neither certificate opens them.

  Everything up to the numerator and the denominator is stated for an arbitrary float model: the two programs agree on
  this part operation by operation, so nothing about the arithmetic is used.  Only the closing layer `out` is read on
  the extended reals.
-/
import proofs.«131859_j56255481643188_1_alg».proof.Proof.Gen.ReferenceIdeal
import proofs.«131859_j56255481643188_1_alg».proof.Proof.LibRatioLayer

noncomputable section

namespace Cert.Pre

open Idealize.ShloMosaic Cert.ReferenceIdeal
open Cert.ReferenceIdeal.Facts₀

variable {F : FTy → Type} [FloatOps F]

/-- The edges' targets. -/
def row (ei : IVec S2x640000 32) : IVec S640000 32 :=
  shapeCast S640000 (extractStridedSlice S1x640000 ![0, 0] ei slices_S2x640000_S1x640000_0_0) shapeCasts_S1x640000_S640000

/-- The edges' sources. -/
def col (ei : IVec S2x640000 32) : IVec S640000 32 :=
  shapeCast S640000 (extractStridedSlice S1x640000 ![1, 0] ei slices_S2x640000_S1x640000_1_0) shapeCasts_S1x640000_S640000

/-- A vector over the edges as a one-column matrix. -/
def column {α : Type} (v : S640000.Idx → α) : S640000x1.Idx → α :=
  broadcastInDim S640000x1 ![0] bcast_S640000_S640000x1_0 v

/-- An index word below zero moved up by the number of nodes. -/
def wrap (v : IVec S640000 32) : IVec S640000 32 :=
  select (cmpi .slt v (broadcastInDim S640000 ![] bcast_S_S640000 (constantI S_ 32 0#32)))
    (addi v (broadcastInDim S640000 ![] bcast_S_S640000 (constantI S_ 32 50000#32))) v

/-- Zero at every node. -/
def zeros : FVec F S50000 .f32 := broadcastInDim S50000 ![] bcast_S_S50000 (constant (F := F) S_ .f32 0x00000000#32)

/-- Zero at every node and feature. -/
def zerosWide : FVec F S50000x128 .f32 := broadcastInDim S50000x128 ![] bcast_S_S50000x128 (constant (F := F) S_ .f32 0x00000000#32)

/-- Each node's number of outgoing edges. -/
def deg (ei : IVec S2x640000 32) : FVec F S50000 .f32 :=
  Host.scatterAdd (F := F) scatter_S50000_S640000x1_S640000_n_0_0_1 zeros (column (col ei))
    (broadcastInDim S640000 ![] bcast_S_S640000 (constant (F := F) S_ .f32 0x3F800000#32))

/-- deg^(-1/2) where the degree is positive, zero elsewhere. -/
def dinv (ei : IVec S2x640000 32) : FVec F S50000 .f32 :=
  select (cmpf (F := F) .ogt (deg ei) zeros)
    (Host.powf (F := F) (deg ei) (broadcastInDim S50000 ![] bcast_S_S50000 (constant (F := F) S_ .f32 0xBF000000#32)))
    (broadcastInDim S50000 ![] bcast_S_S50000 (id (constant (F := F) S_ .f32 0x00000000#32)))

/-- Each edge's weight in the normalised adjacency. -/
def weight (ei : IVec S2x640000 32) : FVec F S640000 .f32 :=
  mulf (F := F) (Host.gather gather_S50000_S640000x1_S640000_n_0_n_n_0_1_1 (dinv (F := F) ei) (column (wrap (row ei))))
    (Host.gather gather_S50000_S640000x1_S640000_n_0_n_n_0_1_1 (dinv (F := F) ei) (column (wrap (col ei))))

/-- Each node's sum of incoming weights. -/
def rowsum (ei : IVec S2x640000 32) : FVec F S50000 .f32 :=
  Host.scatterAdd (F := F) scatter_S50000_S640000x1_S640000_n_0_0_1 zeros (column (row ei)) (weight ei)

/-- The normalised adjacency times a feature matrix. -/
def spmm (M : FVec F S50000x128 .f32) (ei : IVec S2x640000 32) : FVec F S50000x128 .f32 :=
  Host.scatterAdd (F := F) scatter_S50000x128_S640000x1_S640000x128_1_0_0_1 zerosWide (column (row ei))
    (mulf (F := F) (broadcastInDim S640000x128 ![0, 1] bcast_S640000x1_S640000x128_0_1 (column (weight (F := F) ei)))
      (Host.gather gather_S50000x128_S640000x1_S640000x128_1_0_n_n_0_1_1128 M (column (wrap (col ei)))))

/-- `jnp.nan_to_num` over the feature matrix, as both programs spell it on the host: "a ≠ a" selects zero, then +∞ is
    replaced by the largest finite word and −∞ by the smallest. -/
def cleaned (a : FVec F S50000x128 .f32) : FVec F S50000x128 .f32 :=
  let r1 := select (cmpf (F := F) .une a a) (broadcastInDim S50000x128 ![] bcast_S_S50000x128 (constant (F := F) S_ .f32 0x00000000#32)) a
  let r2 := select (cmpf (F := F) .oeq r1 (broadcastInDim S50000x128 ![] bcast_S_S50000x128 (constant (F := F) S_ .f32 0x7F800000#32)))
    (broadcastInDim S50000x128 ![] bcast_S_S50000x128 (constant (F := F) S_ .f32 0x7F7FFFFF#32)) r1
  select (cmpf (F := F) .oeq r2 (broadcastInDim S50000x128 ![] bcast_S_S50000x128 (constant (F := F) S_ .f32 0xFF800000#32)))
    (broadcastInDim S50000x128 ![] bcast_S_S50000x128 (constant (F := F) S_ .f32 0xFF7FFFFF#32)) r2

/-- The numerator: the row sums, along the rows, times the product with the masked cleaned features. -/
def num (x mask : FVec F S50000x128 .f32) (ei : IVec S2x640000 32) : FVec F S50000x128 .f32 :=
  mulf (F := F) (broadcastInDim S50000x128 ![0, 1] bcast_S50000x1_S50000x128_0_1
      (broadcastInDim S50000x1 ![0] bcast_S50000_S50000x1_0 (rowsum (F := F) ei)))
    (spmm (mulf (F := F) mask (cleaned x)) ei)

/-- The denominator: the product with the mask. -/
def den (mask : FVec F S50000x128 .f32) (ei : IVec S2x640000 32) : FVec F S50000x128 .f32 :=
  spmm mask ei

/-- What both programs compute: the masked-ratio layer of the numerator and the denominator against the transposed
    weights, plus the bias, on the extended reals. -/
def out (x mask : FVec Ideal S50000x128 .f32) (ei : IVec S2x640000 32) (w : FVec Ideal S128x128 .f32)
    (b : FVec Ideal S128 .f32) : FVec Ideal S50000x128 .f32 :=
  Cert.Ratio.layer (A := 50000) (K := 128) (B := 128) (num x mask ei) (den mask ei)
    (transpose S128x128 [1, 0] w transposes_S128x128_S128x128_1_0) b

end Cert.Pre

end
-- ==== Proof.KernelEntry.lean ====
/-
  What the kernel's region finds in its four operand arrays.

  Before its one region the kernel's program runs the host operations it shares with the reference. When the region
  is entered, the array its first window stages holds the numerator of the arguments, the second window's the
  denominator, the third's the transposed weight matrix, and the fourth's is the bias argument itself. This holds in
  any float model: the host operations are the definitions of the numerator and the denominator, one by one.
-/
import proofs.«131859_j56255481643188_1_alg».proof.Proof.Gen.KernelIdeal.Frame
import proofs.«131859_j56255481643188_1_alg».proof.Proof.Prefix
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F] (m : (ℓ : Loc nD τ sig) → Buf (Elt F) ℓ)

/-- The five arguments as launched, with their tensor types. -/
abbrev xOf (c : Dev nD) : FVec F S50000x128 .f32 := m ((c : Thread nD τ).loc main_arg0)
abbrev maskOf (c : Dev nD) : FVec F S50000x128 .f32 := m ((c : Thread nD τ).loc main_arg1)
abbrev edgesOf (c : Dev nD) : IVec S2x640000 32 := m ((c : Thread nD τ).loc main_arg2)
abbrev wOf (c : Dev nD) : FVec F S128x128 .f32 := m ((c : Thread nD τ).loc main_arg3)
abbrev biasOf (c : Dev nD) : FVec F S128 .f32 := m ((c : Thread nD τ).loc main_arg4)

set_option maxRecDepth 100000 in
set_option maxHeartbeats 40000000 in
/-- The first window's array holds the numerator. -/
theorem found_num (c : Dev nD) :
    (V m c (Pipeline.arrRef spec0 0) : FVec F S50000x128 .f32) = Cert.Pre.num (xOf m c) (maskOf m c) (edgesOf m c) := by
  show (after (List.flatten [hostOps0, hostOps0_1, hostOps0_2, hostOps0_3, hostOps0_4]) (fun b => m (c, b))
      (Proc.devRef .tc main_v48) : FVec F S50000x128 .f32) = _
  simp only [hostOps0, hostOps0_1, hostOps0_2, hostOps0_3, hostOps0_4, List.flatten_cons, List.flatten_nil, List.append_nil,
    List.cons_append, List.nil_append]
  after_results_simp
  simp only [TRef.toBuf, TRef.ofBuf, cast_eq, id]
  rfl

set_option maxRecDepth 100000 in
set_option maxHeartbeats 40000000 in
/-- The second window's array holds the denominator. -/
theorem found_den (c : Dev nD) :
    (V m c (Pipeline.arrRef spec0 1) : FVec F S50000x128 .f32) = Cert.Pre.den (maskOf m c) (edgesOf m c) := by
  show (after (List.flatten [hostOps0, hostOps0_1, hostOps0_2, hostOps0_3, hostOps0_4]) (fun b => m (c, b))
      (Proc.devRef .tc main_v61) : FVec F S50000x128 .f32) = _
  simp only [hostOps0, hostOps0_1, hostOps0_2, hostOps0_3, hostOps0_4, List.flatten_cons, List.flatten_nil, List.append_nil,
    List.cons_append, List.nil_append]
  after_results_simp
  simp only [TRef.toBuf, TRef.ofBuf, cast_eq, id]
  rfl

set_option maxRecDepth 100000 in
set_option maxHeartbeats 40000000 in
/-- The third window's array holds the transposed weights. -/
theorem found_wt (c : Dev nD) :
    (V m c (Pipeline.arrRef spec0 2) : FVec F S128x128 .f32)
      = transpose S128x128 [1, 0] (wOf m c) Facts₀.transposes_S128x128_S128x128_1_0 := by
  show (after (List.flatten [hostOps0, hostOps0_1, hostOps0_2, hostOps0_3, hostOps0_4]) (fun b => m (c, b))
      (Proc.devRef .tc main_v62) : FVec F S128x128 .f32) = _
  simp only [hostOps0, hostOps0_1, hostOps0_2, hostOps0_3, hostOps0_4, List.flatten_cons, List.flatten_nil, List.append_nil,
    List.cons_append, List.nil_append]
  after_results_simp

/-- The fourth window's array is the bias argument, which no host operation writes. -/
theorem found_bias (c : Dev nD) : (V m c (Pipeline.arrRef spec0 3) : FVec F S128 .f32) = biasOf m c :=
  V_main_arg4 m c

end Cert.KernelIdeal.Entry

end
-- ==== Proof.KernelRun.lean ====
/-
  The kernel's run, read: its result array ends at `Cert.Pre.out` of the five arguments.

  The result array after the run is the masked-ratio layer of the four arrays the region found (the blocks tile it),
  and those four arrays are the numerator, the denominator, the transposed weights and the bias of the arguments.
-/
import proofs.«131859_j56255481643188_1_alg».proof.Proof.Whole
import proofs.«131859_j56255481643188_1_alg».proof.Proof.KernelEntry

noncomputable section

namespace Cert.KernelIdeal.Read

open Cert.KernelIdeal Cert.KernelIdeal.Gen Idealize.ShloMosaic Idealize.ShloMosaic.TcCoe Idealize.SL.Sem
open Cert.KernelIdeal.Whole Cert.KernelIdeal.Entry

variable (m : (ℓ : Loc nD τ sig) → Buf (Elt Ideal) ℓ) (ρ : Dev nD → PrngReg)

/-- The layer of the four arrays the region found is the joint specification of the arguments. -/
theorem result_eq (c : Dev nD) :
    result (numA m c) (denA m c) (wtA m c) (biasA m c)
      = Cert.Pre.out (xOf m c) (maskOf m c) (edgesOf m c) (wOf m c) (biasOf m c) := by
  have h0 : numA m c = Cert.Pre.num (xOf m c) (maskOf m c) (edgesOf m c) := found_num m c
  have h1 : denA m c = Cert.Pre.den (maskOf m c) (edgesOf m c) := found_den m c
  have h2 : wtA m c = transpose S128x128 [1, 0] (wOf m c) Facts₀.transposes_S128x128_S128x128_1_0 := found_wt m c
  have h3 : biasA m c = biasOf m c := found_bias m c
  rw [h0, h1, h2, h3]
  rfl

/-- Every weakly fair execution of the kernel's program terminates with the result array at the joint specification
    of the arguments and the arguments unchanged. -/
theorem run : θ_run defs (onTc (τ := τ) (main (F := Ideal))) ⟨m, fun _ => 0, ρ⟩ fun r => ∀ c : Dev nD,
      r.2.mem ((c : Thread nD τ).loc main_v63) = Cert.Pre.out (xOf m c) (maskOf m c) (edgesOf m c) (wOf m c) (biasOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (result_eq m c)), (h c).2⟩)
    (Cert.KernelIdeal.Value.run_blocks (F := Ideal) m ρ)

end Cert.KernelIdeal.Read

end
-- ==== Proof.RefLine.lean ====
/-
  The reference program's run.

  The reference is one straight line of host operations: its @main, with the three helper functions it calls
  (`where` once, `nan_to_num` twice, themselves calling `where` helpers) written out at their call sites over each
  call's own buffers. The line is kept in three stretches: the first sixty statements of @main (the edge weights of
  the normalised adjacency, the cleaned features and the first sparse product), the rest of what both programs share
  (the numerator, and the second sparse product, which is the denominator), and the closing dense layer (the
  quotient, `nan_to_num`, the product with the transposed weights, the bias). Every weakly fair execution terminates
  and leaves each buffer at the fold of the operations' results over the launch contents.
-/
import proofs.«131859_j56255481643188_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The first sixty statements of @main: 77 operations. -/
abbrev opsA : List (HloOp τ sig (Elt F)) :=
  [ StableHlo.unary main_arg2 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg2 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.nullary main_cst (constant S_ .f32 0x3F800000#32),
    StableHlo.unary main_cst main_v4 (broadcastInDim S640000 ![] bcast_S_S640000 : (⟨S_, .f32⟩ : BufTy).Contents (Elt F) → (⟨S640000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S640000x1 ![0] bcast_S640000_S640000x1_0 : (⟨S640000, .i32⟩ : BufTy).Contents (Elt F) → (⟨S640000x1, .i32⟩ : BufTy).Contents (Elt F)),
    StableHlo.ternary main_v5 main_v6 main_v4 main_v7 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    StableHlo.nullary main_cst_1 (constant S_ .f32 0x00000000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0xBF000000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v7 main_v10 main_v11 (Host.powf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v9 : StableHlo.TRef sig ⟨S50000, .i1⟩) (.of main_v11 : StableHlo.TRef sig ⟨S50000, .f32⟩) (.of main_call0_v1 : StableHlo.TRef sig ⟨S50000, .f32⟩) (.of main_v12 : StableHlo.TRef sig ⟨S50000, .f32⟩) select,
    StableHlo.nullary main_c (constantI S_ 32 0#32),
    StableHlo.unary main_c main_v13 (broadcastInDim S640000 ![] bcast_S_S640000 : (⟨S_, .i32⟩ : BufTy).Contents (Elt F) → (⟨S640000, .i32⟩ : BufTy).Contents (Elt F)),
    StableHlo.binary main_v1 main_v13 main_v14 (cmpi .slt : (⟨S640000, .i32⟩ : BufTy).Contents (Elt F) → (⟨S640000, .i32⟩ : BufTy).Contents (Elt F) → (⟨S640000, .i1⟩ : BufTy).Contents (Elt F)),
    StableHlo.nullary main_c_4 (constantI S_ 32 50000#32),
    StableHlo.unary main_c_4 main_v15 (broadcastInDim S640000 ![] bcast_S_S640000 : (⟨S_, .i32⟩ : BufTy).Contents (Elt F) → (⟨S640000, .i32⟩ : BufTy).Contents (Elt F)),
    StableHlo.binary main_v1 main_v15 main_v16 (addi : (⟨S640000, .i32⟩ : BufTy).Contents (Elt F) → (⟨S640000, .i32⟩ : BufTy).Contents (Elt F) → (⟨S640000, .i32⟩ : BufTy).Contents (Elt F)),
    StableHlo.ternary main_v14 main_v16 main_v1 main_v17 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v17 main_v18 (broadcastInDim S640000x1 ![0] bcast_S640000_S640000x1_0 : (⟨S640000, .i32⟩ : BufTy).Contents (Elt F) → (⟨S640000x1, .i32⟩ : BufTy).Contents (Elt F)),
    StableHlo.binary main_v12 main_v18 main_v19 ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)),
    StableHlo.nullary main_c_5 (constantI S_ 32 0#32),
    StableHlo.unary main_c_5 main_v20 (broadcastInDim S640000 ![] bcast_S_S640000 : (⟨S_, .i32⟩ : BufTy).Contents (Elt F) → (⟨S640000, .i32⟩ : BufTy).Contents (Elt F)),
    StableHlo.binary main_v3 main_v20 main_v21 (cmpi .slt : (⟨S640000, .i32⟩ : BufTy).Contents (Elt F) → (⟨S640000, .i32⟩ : BufTy).Contents (Elt F) → (⟨S640000, .i1⟩ : BufTy).Contents (Elt F)),
    StableHlo.nullary main_c_6 (constantI S_ 32 50000#32),
    StableHlo.unary main_c_6 main_v22 (broadcastInDim S640000 ![] bcast_S_S640000 : (⟨S_, .i32⟩ : BufTy).Contents (Elt F) → (⟨S640000, .i32⟩ : BufTy).Contents (Elt F)),
    StableHlo.binary main_v3 main_v22 main_v23 (addi : (⟨S640000, .i32⟩ : BufTy).Contents (Elt F) → (⟨S640000, .i32⟩ : BufTy).Contents (Elt F) → (⟨S640000, .i32⟩ : BufTy).Contents (Elt F)),
    StableHlo.ternary main_v21 main_v23 main_v3 main_v24 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v24 main_v25 (broadcastInDim S640000x1 ![0] bcast_S640000_S640000x1_0 : (⟨S640000, .i32⟩ : BufTy).Contents (Elt F) → (⟨S640000x1, .i32⟩ : BufTy).Contents (Elt F)),
    StableHlo.binary main_v12 main_v25 main_v26 ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)),
    StableHlo.binary main_v19 main_v26 main_v27 (mulf : (⟨S640000, .f32⟩ : BufTy).Contents (Elt F) → (⟨S640000, .f32⟩ : BufTy).Contents (Elt F) → (⟨S640000, .f32⟩ : BufTy).Contents (Elt F)),
    StableHlo.TRef.binary (.of main_arg0 : StableHlo.TRef sig ⟨S50000x128, .f32⟩) (.of main_arg0 : StableHlo.TRef sig ⟨S50000x128, .f32⟩) (.of main_call1_v0 : StableHlo.TRef sig ⟨S50000x128, .i1⟩) (cmpf .une),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_call0_v0 : StableHlo.TRef sig ⟨S50000x128, .f32⟩) (broadcastInDim S50000x128 ![] bcast_S_S50000x128),
    StableHlo.TRef.ternary (.of main_call1_v0 : StableHlo.TRef sig ⟨S50000x128, .i1⟩) (.of main_call1_call0_v0 : StableHlo.TRef sig ⟨S50000x128, .f32⟩) (.of main_arg0 : StableHlo.TRef sig ⟨S50000x128, .f32⟩) (.of main_call1_v1 : StableHlo.TRef sig ⟨S50000x128, .f32⟩) select,
    StableHlo.TRef.nullary (.of main_call1_cst_0 : StableHlo.TRef sig ⟨S_, .f32⟩) (constant S_ .f32 0x7F800000#32),
    StableHlo.TRef.unary (.of main_call1_cst_0 : StableHlo.TRef sig ⟨S_, .f32⟩) (.of main_call1_v2 : StableHlo.TRef sig ⟨S50000x128, .f32⟩) (broadcastInDim S50000x128 ![] bcast_S_S50000x128),
    StableHlo.TRef.binary main_call1_call0.v1 (.of main_call1_v2 : StableHlo.TRef sig ⟨S50000x128, .f32⟩) (.of main_call1_v3 : StableHlo.TRef sig ⟨S50000x128, .i1⟩) (cmpf .oeq),
    StableHlo.TRef.nullary (.of main_call1_cst_1 : StableHlo.TRef sig ⟨S_, .f32⟩) (constant S_ .f32 0x7F7FFFFF#32),
    StableHlo.TRef.unary (.of main_call1_cst_1 : StableHlo.TRef sig ⟨S_, .f32⟩) (.of main_call1_call1_v0 : StableHlo.TRef sig ⟨S50000x128, .f32⟩) (broadcastInDim S50000x128 ![] bcast_S_S50000x128),
    StableHlo.TRef.ternary (.of main_call1_v3 : StableHlo.TRef sig ⟨S50000x128, .i1⟩) (.of main_call1_call1_v0 : StableHlo.TRef sig ⟨S50000x128, .f32⟩) (main_call1_call0.v1 : StableHlo.TRef sig ⟨S50000x128, .f32⟩) (.of main_call1_v4 : StableHlo.TRef sig ⟨S50000x128, .f32⟩) select,
    StableHlo.TRef.nullary (.of main_call1_cst_2 : StableHlo.TRef sig ⟨S_, .f32⟩) (constant S_ .f32 0xFF800000#32),
    StableHlo.TRef.unary (.of main_call1_cst_2 : StableHlo.TRef sig ⟨S_, .f32⟩) (.of main_call1_v5 : StableHlo.TRef sig ⟨S50000x128, .f32⟩) (broadcastInDim S50000x128 ![] bcast_S_S50000x128),
    StableHlo.TRef.binary main_call1_call1.v1 (.of main_call1_v5 : StableHlo.TRef sig ⟨S50000x128, .f32⟩) (.of main_call1_v6 : StableHlo.TRef sig ⟨S50000x128, .i1⟩) (cmpf .oeq),
    StableHlo.TRef.nullary (.of main_call1_cst_3 : StableHlo.TRef sig ⟨S_, .f32⟩) (constant S_ .f32 0xFF7FFFFF#32),
    StableHlo.TRef.unary (.of main_call1_cst_3 : StableHlo.TRef sig ⟨S_, .f32⟩) (.of main_call1_call2_v0 : StableHlo.TRef sig ⟨S50000x128, .f32⟩) (broadcastInDim S50000x128 ![] bcast_S_S50000x128),
    StableHlo.TRef.ternary (.of main_call1_v6 : StableHlo.TRef sig ⟨S50000x128, .i1⟩) (.of main_call1_call2_v0 : StableHlo.TRef sig ⟨S50000x128, .f32⟩) (main_call1_call1.v1 : StableHlo.TRef sig ⟨S50000x128, .f32⟩) (.of main_v28 : StableHlo.TRef sig ⟨S50000x128, .f32⟩) select,
    StableHlo.nullary main_cst_7 (constant S_ .f32 0x00000000#32),
    StableHlo.unary main_cst_7 main_v29 (broadcastInDim S50000 ![] bcast_S_S50000 : (⟨S_, .f32⟩ : BufTy).Contents (Elt F) → (⟨S50000, .f32⟩ : BufTy).Contents (Elt F)),
    StableHlo.unary main_v1 main_v30 (broadcastInDim S640000x1 ![0] bcast_S640000_S640000x1_0 : (⟨S640000, .i32⟩ : BufTy).Contents (Elt F) → (⟨S640000x1, .i32⟩ : BufTy).Contents (Elt F)),
    StableHlo.ternary main_v29 main_v30 main_v27 main_v31 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    StableHlo.unary main_v31 main_v32 (broadcastInDim S50000x1 ![0] bcast_S50000_S50000x1_0 : (⟨S50000, .f32⟩ : BufTy).Contents (Elt F) → (⟨S50000x1, .f32⟩ : BufTy).Contents (Elt F)),
    StableHlo.binary main_arg1 main_v28 main_v33 (mulf : (⟨S50000x128, .f32⟩ : BufTy).Contents (Elt F) → (⟨S50000x128, .f32⟩ : BufTy).Contents (Elt F) → (⟨S50000x128, .f32⟩ : BufTy).Contents (Elt F)),
    StableHlo.unary main_v27 main_v34 (broadcastInDim S640000x1 ![0] bcast_S640000_S640000x1_0 : (⟨S640000, .f32⟩ : BufTy).Contents (Elt F) → (⟨S640000x1, .f32⟩ : BufTy).Contents (Elt F)),
    StableHlo.nullary main_c_8 (constantI S_ 32 0#32),
    StableHlo.unary main_c_8 main_v35 (broadcastInDim S640000 ![] bcast_S_S640000 : (⟨S_, .i32⟩ : BufTy).Contents (Elt F) → (⟨S640000, .i32⟩ : BufTy).Contents (Elt F)),
    StableHlo.binary main_v3 main_v35 main_v36 (cmpi .slt : (⟨S640000, .i32⟩ : BufTy).Contents (Elt F) → (⟨S640000, .i32⟩ : BufTy).Contents (Elt F) → (⟨S640000, .i1⟩ : BufTy).Contents (Elt F)),
    StableHlo.nullary main_c_9 (constantI S_ 32 50000#32),
    StableHlo.unary main_c_9 main_v37 (broadcastInDim S640000 ![] bcast_S_S640000 : (⟨S_, .i32⟩ : BufTy).Contents (Elt F) → (⟨S640000, .i32⟩ : BufTy).Contents (Elt F)),
    StableHlo.binary main_v3 main_v37 main_v38 (addi : (⟨S640000, .i32⟩ : BufTy).Contents (Elt F) → (⟨S640000, .i32⟩ : BufTy).Contents (Elt F) → (⟨S640000, .i32⟩ : BufTy).Contents (Elt F)),
    StableHlo.ternary main_v36 main_v38 main_v3 main_v39 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v39 main_v40 (broadcastInDim S640000x1 ![0] bcast_S640000_S640000x1_0 : (⟨S640000, .i32⟩ : BufTy).Contents (Elt F) → (⟨S640000x1, .i32⟩ : BufTy).Contents (Elt F)),
    StableHlo.binary main_v33 main_v40 main_v41 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_v34 main_v42 (broadcastInDim S640000x128 ![0, 1] bcast_S640000x1_S640000x128_0_1 : (⟨S640000x1, .f32⟩ : BufTy).Contents (Elt F) → (⟨S640000x128, .f32⟩ : BufTy).Contents (Elt F)),
    StableHlo.binary main_v42 main_v41 main_v43 (mulf : (⟨S640000x128, .f32⟩ : BufTy).Contents (Elt F) → (⟨S640000x128, .f32⟩ : BufTy).Contents (Elt F) → (⟨S640000x128, .f32⟩ : BufTy).Contents (Elt F)),
    StableHlo.nullary main_cst_10 (constant S_ .f32 0x00000000#32),
    StableHlo.unary main_cst_10 main_v44 (broadcastInDim S50000x128 ![] bcast_S_S50000x128 : (⟨S_, .f32⟩ : BufTy).Contents (Elt F) → (⟨S50000x128, .f32⟩ : BufTy).Contents (Elt F)),
    StableHlo.unary main_v1 main_v45 (broadcastInDim S640000x1 ![0] bcast_S640000_S640000x1_0 : (⟨S640000, .i32⟩ : BufTy).Contents (Elt F) → (⟨S640000x1, .i32⟩ : BufTy).Contents (Elt F)),
    StableHlo.ternary main_v44 main_v45 main_v43 main_v46 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]

/-- Up to the denominator: 18 operations. -/
abbrev opsB : List (HloOp τ sig (Elt F)) :=
  [ StableHlo.unary main_v32 main_v47 (broadcastInDim S50000x128 ![0, 1] bcast_S50000x1_S50000x128_0_1 : (⟨S50000x1, .f32⟩ : BufTy).Contents (Elt F) → (⟨S50000x128, .f32⟩ : BufTy).Contents (Elt F)),
    StableHlo.binary main_v47 main_v46 main_v48 (mulf : (⟨S50000x128, .f32⟩ : BufTy).Contents (Elt F) → (⟨S50000x128, .f32⟩ : BufTy).Contents (Elt F) → (⟨S50000x128, .f32⟩ : BufTy).Contents (Elt F)),
    StableHlo.unary main_v27 main_v49 (broadcastInDim S640000x1 ![0] bcast_S640000_S640000x1_0 : (⟨S640000, .f32⟩ : BufTy).Contents (Elt F) → (⟨S640000x1, .f32⟩ : BufTy).Contents (Elt F)),
    StableHlo.nullary main_c_11 (constantI S_ 32 0#32),
    StableHlo.unary main_c_11 main_v50 (broadcastInDim S640000 ![] bcast_S_S640000 : (⟨S_, .i32⟩ : BufTy).Contents (Elt F) → (⟨S640000, .i32⟩ : BufTy).Contents (Elt F)),
    StableHlo.binary main_v3 main_v50 main_v51 (cmpi .slt : (⟨S640000, .i32⟩ : BufTy).Contents (Elt F) → (⟨S640000, .i32⟩ : BufTy).Contents (Elt F) → (⟨S640000, .i1⟩ : BufTy).Contents (Elt F)),
    StableHlo.nullary main_c_12 (constantI S_ 32 50000#32),
    StableHlo.unary main_c_12 main_v52 (broadcastInDim S640000 ![] bcast_S_S640000 : (⟨S_, .i32⟩ : BufTy).Contents (Elt F) → (⟨S640000, .i32⟩ : BufTy).Contents (Elt F)),
    StableHlo.binary main_v3 main_v52 main_v53 (addi : (⟨S640000, .i32⟩ : BufTy).Contents (Elt F) → (⟨S640000, .i32⟩ : BufTy).Contents (Elt F) → (⟨S640000, .i32⟩ : BufTy).Contents (Elt F)),
    StableHlo.ternary main_v51 main_v53 main_v3 main_v54 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v54 main_v55 (broadcastInDim S640000x1 ![0] bcast_S640000_S640000x1_0 : (⟨S640000, .i32⟩ : BufTy).Contents (Elt F) → (⟨S640000x1, .i32⟩ : BufTy).Contents (Elt F)),
    StableHlo.binary main_arg1 main_v55 main_v56 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_v49 main_v57 (broadcastInDim S640000x128 ![0, 1] bcast_S640000x1_S640000x128_0_1 : (⟨S640000x1, .f32⟩ : BufTy).Contents (Elt F) → (⟨S640000x128, .f32⟩ : BufTy).Contents (Elt F)),
    StableHlo.binary main_v57 main_v56 main_v58 (mulf : (⟨S640000x128, .f32⟩ : BufTy).Contents (Elt F) → (⟨S640000x128, .f32⟩ : BufTy).Contents (Elt F) → (⟨S640000x128, .f32⟩ : BufTy).Contents (Elt F)),
    StableHlo.nullary main_cst_13 (constant S_ .f32 0x00000000#32),
    StableHlo.unary main_cst_13 main_v59 (broadcastInDim S50000x128 ![] bcast_S_S50000x128 : (⟨S_, .f32⟩ : BufTy).Contents (Elt F) → (⟨S50000x128, .f32⟩ : BufTy).Contents (Elt F)),
    StableHlo.unary main_v1 main_v60 (broadcastInDim S640000x1 ![0] bcast_S640000_S640000x1_0 : (⟨S640000, .i32⟩ : BufTy).Contents (Elt F) → (⟨S640000x1, .i32⟩ : BufTy).Contents (Elt F)),
    StableHlo.ternary main_v59 main_v60 main_v58 main_v61 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]

/-- The closing dense layer: 22 operations. -/
abbrev opsC : List (HloOp τ sig (Elt F)) :=
  [ StableHlo.binary main_v48 main_v61 main_v62 (Host.divf : (⟨S50000x128, .f32⟩ : BufTy).Contents (Elt F) → (⟨S50000x128, .f32⟩ : BufTy).Contents (Elt F) → (⟨S50000x128, .f32⟩ : BufTy).Contents (Elt F)),
    StableHlo.TRef.binary (.of main_v62 : StableHlo.TRef sig ⟨S50000x128, .f32⟩) (.of main_v62 : StableHlo.TRef sig ⟨S50000x128, .f32⟩) (.of main_call2_v0 : StableHlo.TRef sig ⟨S50000x128, .i1⟩) (cmpf .une),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_call0_v0 : StableHlo.TRef sig ⟨S50000x128, .f32⟩) (broadcastInDim S50000x128 ![] bcast_S_S50000x128),
    StableHlo.TRef.ternary (.of main_call2_v0 : StableHlo.TRef sig ⟨S50000x128, .i1⟩) (.of main_call2_call0_v0 : StableHlo.TRef sig ⟨S50000x128, .f32⟩) (.of main_v62 : StableHlo.TRef sig ⟨S50000x128, .f32⟩) (.of main_call2_v1 : StableHlo.TRef sig ⟨S50000x128, .f32⟩) select,
    StableHlo.TRef.nullary (.of main_call2_cst_0 : StableHlo.TRef sig ⟨S_, .f32⟩) (constant S_ .f32 0x7F800000#32),
    StableHlo.TRef.unary (.of main_call2_cst_0 : StableHlo.TRef sig ⟨S_, .f32⟩) (.of main_call2_v2 : StableHlo.TRef sig ⟨S50000x128, .f32⟩) (broadcastInDim S50000x128 ![] bcast_S_S50000x128),
    StableHlo.TRef.binary main_call2_call0.v1 (.of main_call2_v2 : StableHlo.TRef sig ⟨S50000x128, .f32⟩) (.of main_call2_v3 : StableHlo.TRef sig ⟨S50000x128, .i1⟩) (cmpf .oeq),
    StableHlo.TRef.nullary (.of main_call2_cst_1 : StableHlo.TRef sig ⟨S_, .f32⟩) (constant S_ .f32 0x7F7FFFFF#32),
    StableHlo.TRef.unary (.of main_call2_cst_1 : StableHlo.TRef sig ⟨S_, .f32⟩) (.of main_call2_call1_v0 : StableHlo.TRef sig ⟨S50000x128, .f32⟩) (broadcastInDim S50000x128 ![] bcast_S_S50000x128),
    StableHlo.TRef.ternary (.of main_call2_v3 : StableHlo.TRef sig ⟨S50000x128, .i1⟩) (.of main_call2_call1_v0 : StableHlo.TRef sig ⟨S50000x128, .f32⟩) (main_call2_call0.v1 : StableHlo.TRef sig ⟨S50000x128, .f32⟩) (.of main_call2_v4 : StableHlo.TRef sig ⟨S50000x128, .f32⟩) select,
    StableHlo.TRef.nullary (.of main_call2_cst_2 : StableHlo.TRef sig ⟨S_, .f32⟩) (constant S_ .f32 0xFF800000#32),
    StableHlo.TRef.unary (.of main_call2_cst_2 : StableHlo.TRef sig ⟨S_, .f32⟩) (.of main_call2_v5 : StableHlo.TRef sig ⟨S50000x128, .f32⟩) (broadcastInDim S50000x128 ![] bcast_S_S50000x128),
    StableHlo.TRef.binary main_call2_call1.v1 (.of main_call2_v5 : StableHlo.TRef sig ⟨S50000x128, .f32⟩) (.of main_call2_v6 : StableHlo.TRef sig ⟨S50000x128, .i1⟩) (cmpf .oeq),
    StableHlo.TRef.nullary (.of main_call2_cst_3 : StableHlo.TRef sig ⟨S_, .f32⟩) (constant S_ .f32 0xFF7FFFFF#32),
    StableHlo.TRef.unary (.of main_call2_cst_3 : StableHlo.TRef sig ⟨S_, .f32⟩) (.of main_call2_call2_v0 : StableHlo.TRef sig ⟨S50000x128, .f32⟩) (broadcastInDim S50000x128 ![] bcast_S_S50000x128),
    StableHlo.TRef.ternary (.of main_call2_v6 : StableHlo.TRef sig ⟨S50000x128, .i1⟩) (.of main_call2_call2_v0 : StableHlo.TRef sig ⟨S50000x128, .f32⟩) (main_call2_call1.v1 : StableHlo.TRef sig ⟨S50000x128, .f32⟩) (.of main_v63 : StableHlo.TRef sig ⟨S50000x128, .f32⟩) select,
    StableHlo.unary main_arg3 main_v64 ((transpose S128x128 [1, 0] · transposes_S128x128_S128x128_1_0) : (⟨S128x128, .f32⟩ : BufTy).Contents (Elt F) → (⟨S128x128, .f32⟩ : BufTy).Contents (Elt F)),
    StableHlo.binary main_v63 main_v64 main_v65 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v67 main_v68 (addf : (⟨S50000x128, .f32⟩ : BufTy).Contents (Elt F) → (⟨S50000x128, .f32⟩ : BufTy).Contents (Elt F) → (⟨S50000x128, .f32⟩ : BufTy).Contents (Elt F)) ]

/-- Everything before the closing layer, as one list: 95 operations. -/
abbrev opsAB : List (HloOp τ sig (Elt F)) :=
  [ StableHlo.unary main_arg2 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg2 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.nullary main_cst (constant S_ .f32 0x3F800000#32),
    StableHlo.unary main_cst main_v4 (broadcastInDim S640000 ![] bcast_S_S640000 : (⟨S_, .f32⟩ : BufTy).Contents (Elt F) → (⟨S640000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S640000x1 ![0] bcast_S640000_S640000x1_0 : (⟨S640000, .i32⟩ : BufTy).Contents (Elt F) → (⟨S640000x1, .i32⟩ : BufTy).Contents (Elt F)),
    StableHlo.ternary main_v5 main_v6 main_v4 main_v7 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    StableHlo.nullary main_cst_1 (constant S_ .f32 0x00000000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0xBF000000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v7 main_v10 main_v11 (Host.powf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v9 : StableHlo.TRef sig ⟨S50000, .i1⟩) (.of main_v11 : StableHlo.TRef sig ⟨S50000, .f32⟩) (.of main_call0_v1 : StableHlo.TRef sig ⟨S50000, .f32⟩) (.of main_v12 : StableHlo.TRef sig ⟨S50000, .f32⟩) select,
    StableHlo.nullary main_c (constantI S_ 32 0#32),
    StableHlo.unary main_c main_v13 (broadcastInDim S640000 ![] bcast_S_S640000 : (⟨S_, .i32⟩ : BufTy).Contents (Elt F) → (⟨S640000, .i32⟩ : BufTy).Contents (Elt F)),
    StableHlo.binary main_v1 main_v13 main_v14 (cmpi .slt : (⟨S640000, .i32⟩ : BufTy).Contents (Elt F) → (⟨S640000, .i32⟩ : BufTy).Contents (Elt F) → (⟨S640000, .i1⟩ : BufTy).Contents (Elt F)),
    StableHlo.nullary main_c_4 (constantI S_ 32 50000#32),
    StableHlo.unary main_c_4 main_v15 (broadcastInDim S640000 ![] bcast_S_S640000 : (⟨S_, .i32⟩ : BufTy).Contents (Elt F) → (⟨S640000, .i32⟩ : BufTy).Contents (Elt F)),
    StableHlo.binary main_v1 main_v15 main_v16 (addi : (⟨S640000, .i32⟩ : BufTy).Contents (Elt F) → (⟨S640000, .i32⟩ : BufTy).Contents (Elt F) → (⟨S640000, .i32⟩ : BufTy).Contents (Elt F)),
    StableHlo.ternary main_v14 main_v16 main_v1 main_v17 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v17 main_v18 (broadcastInDim S640000x1 ![0] bcast_S640000_S640000x1_0 : (⟨S640000, .i32⟩ : BufTy).Contents (Elt F) → (⟨S640000x1, .i32⟩ : BufTy).Contents (Elt F)),
    StableHlo.binary main_v12 main_v18 main_v19 ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)),
    StableHlo.nullary main_c_5 (constantI S_ 32 0#32),
    StableHlo.unary main_c_5 main_v20 (broadcastInDim S640000 ![] bcast_S_S640000 : (⟨S_, .i32⟩ : BufTy).Contents (Elt F) → (⟨S640000, .i32⟩ : BufTy).Contents (Elt F)),
    StableHlo.binary main_v3 main_v20 main_v21 (cmpi .slt : (⟨S640000, .i32⟩ : BufTy).Contents (Elt F) → (⟨S640000, .i32⟩ : BufTy).Contents (Elt F) → (⟨S640000, .i1⟩ : BufTy).Contents (Elt F)),
    StableHlo.nullary main_c_6 (constantI S_ 32 50000#32),
    StableHlo.unary main_c_6 main_v22 (broadcastInDim S640000 ![] bcast_S_S640000 : (⟨S_, .i32⟩ : BufTy).Contents (Elt F) → (⟨S640000, .i32⟩ : BufTy).Contents (Elt F)),
    StableHlo.binary main_v3 main_v22 main_v23 (addi : (⟨S640000, .i32⟩ : BufTy).Contents (Elt F) → (⟨S640000, .i32⟩ : BufTy).Contents (Elt F) → (⟨S640000, .i32⟩ : BufTy).Contents (Elt F)),
    StableHlo.ternary main_v21 main_v23 main_v3 main_v24 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v24 main_v25 (broadcastInDim S640000x1 ![0] bcast_S640000_S640000x1_0 : (⟨S640000, .i32⟩ : BufTy).Contents (Elt F) → (⟨S640000x1, .i32⟩ : BufTy).Contents (Elt F)),
    StableHlo.binary main_v12 main_v25 main_v26 ((fun x i => Host.gather gather_S50000_S640000x1_S640000_n_0_n_n_0_1_1 x i) : (⟨S50000, .f32⟩ : BufTy).Contents (Elt F) → (⟨S640000x1, .i32⟩ : BufTy).Contents (Elt F) → (⟨S640000, .f32⟩ : BufTy).Contents (Elt F)),
    StableHlo.binary main_v19 main_v26 main_v27 (mulf : (⟨S640000, .f32⟩ : BufTy).Contents (Elt F) → (⟨S640000, .f32⟩ : BufTy).Contents (Elt F) → (⟨S640000, .f32⟩ : BufTy).Contents (Elt F)),
    StableHlo.TRef.binary (.of main_arg0 : StableHlo.TRef sig ⟨S50000x128, .f32⟩) (.of main_arg0 : StableHlo.TRef sig ⟨S50000x128, .f32⟩) (.of main_call1_v0 : StableHlo.TRef sig ⟨S50000x128, .i1⟩) (cmpf .une),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_call0_v0 : StableHlo.TRef sig ⟨S50000x128, .f32⟩) (broadcastInDim S50000x128 ![] bcast_S_S50000x128),
    StableHlo.TRef.ternary (.of main_call1_v0 : StableHlo.TRef sig ⟨S50000x128, .i1⟩) (.of main_call1_call0_v0 : StableHlo.TRef sig ⟨S50000x128, .f32⟩) (.of main_arg0 : StableHlo.TRef sig ⟨S50000x128, .f32⟩) (.of main_call1_v1 : StableHlo.TRef sig ⟨S50000x128, .f32⟩) select,
    StableHlo.TRef.nullary (.of main_call1_cst_0 : StableHlo.TRef sig ⟨S_, .f32⟩) (constant S_ .f32 0x7F800000#32),
    StableHlo.TRef.unary (.of main_call1_cst_0 : StableHlo.TRef sig ⟨S_, .f32⟩) (.of main_call1_v2 : StableHlo.TRef sig ⟨S50000x128, .f32⟩) (broadcastInDim S50000x128 ![] bcast_S_S50000x128),
    StableHlo.TRef.binary main_call1_call0.v1 (.of main_call1_v2 : StableHlo.TRef sig ⟨S50000x128, .f32⟩) (.of main_call1_v3 : StableHlo.TRef sig ⟨S50000x128, .i1⟩) (cmpf .oeq),
    StableHlo.TRef.nullary (.of main_call1_cst_1 : StableHlo.TRef sig ⟨S_, .f32⟩) (constant S_ .f32 0x7F7FFFFF#32),
    StableHlo.TRef.unary (.of main_call1_cst_1 : StableHlo.TRef sig ⟨S_, .f32⟩) (.of main_call1_call1_v0 : StableHlo.TRef sig ⟨S50000x128, .f32⟩) (broadcastInDim S50000x128 ![] bcast_S_S50000x128),
    StableHlo.TRef.ternary (.of main_call1_v3 : StableHlo.TRef sig ⟨S50000x128, .i1⟩) (.of main_call1_call1_v0 : StableHlo.TRef sig ⟨S50000x128, .f32⟩) (main_call1_call0.v1 : StableHlo.TRef sig ⟨S50000x128, .f32⟩) (.of main_call1_v4 : StableHlo.TRef sig ⟨S50000x128, .f32⟩) select,
    StableHlo.TRef.nullary (.of main_call1_cst_2 : StableHlo.TRef sig ⟨S_, .f32⟩) (constant S_ .f32 0xFF800000#32),
    StableHlo.TRef.unary (.of main_call1_cst_2 : StableHlo.TRef sig ⟨S_, .f32⟩) (.of main_call1_v5 : StableHlo.TRef sig ⟨S50000x128, .f32⟩) (broadcastInDim S50000x128 ![] bcast_S_S50000x128),
    StableHlo.TRef.binary main_call1_call1.v1 (.of main_call1_v5 : StableHlo.TRef sig ⟨S50000x128, .f32⟩) (.of main_call1_v6 : StableHlo.TRef sig ⟨S50000x128, .i1⟩) (cmpf .oeq),
    StableHlo.TRef.nullary (.of main_call1_cst_3 : StableHlo.TRef sig ⟨S_, .f32⟩) (constant S_ .f32 0xFF7FFFFF#32),
    StableHlo.TRef.unary (.of main_call1_cst_3 : StableHlo.TRef sig ⟨S_, .f32⟩) (.of main_call1_call2_v0 : StableHlo.TRef sig ⟨S50000x128, .f32⟩) (broadcastInDim S50000x128 ![] bcast_S_S50000x128),
    StableHlo.TRef.ternary (.of main_call1_v6 : StableHlo.TRef sig ⟨S50000x128, .i1⟩) (.of main_call1_call2_v0 : StableHlo.TRef sig ⟨S50000x128, .f32⟩) (main_call1_call1.v1 : StableHlo.TRef sig ⟨S50000x128, .f32⟩) (.of main_v28 : StableHlo.TRef sig ⟨S50000x128, .f32⟩) select,
    StableHlo.nullary main_cst_7 (constant S_ .f32 0x00000000#32),
    StableHlo.unary main_cst_7 main_v29 (broadcastInDim S50000 ![] bcast_S_S50000 : (⟨S_, .f32⟩ : BufTy).Contents (Elt F) → (⟨S50000, .f32⟩ : BufTy).Contents (Elt F)),
    StableHlo.unary main_v1 main_v30 (broadcastInDim S640000x1 ![0] bcast_S640000_S640000x1_0 : (⟨S640000, .i32⟩ : BufTy).Contents (Elt F) → (⟨S640000x1, .i32⟩ : BufTy).Contents (Elt F)),
    StableHlo.ternary main_v29 main_v30 main_v27 main_v31 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    StableHlo.unary main_v31 main_v32 (broadcastInDim S50000x1 ![0] bcast_S50000_S50000x1_0 : (⟨S50000, .f32⟩ : BufTy).Contents (Elt F) → (⟨S50000x1, .f32⟩ : BufTy).Contents (Elt F)),
    StableHlo.binary main_arg1 main_v28 main_v33 (mulf : (⟨S50000x128, .f32⟩ : BufTy).Contents (Elt F) → (⟨S50000x128, .f32⟩ : BufTy).Contents (Elt F) → (⟨S50000x128, .f32⟩ : BufTy).Contents (Elt F)),
    StableHlo.unary main_v27 main_v34 (broadcastInDim S640000x1 ![0] bcast_S640000_S640000x1_0 : (⟨S640000, .f32⟩ : BufTy).Contents (Elt F) → (⟨S640000x1, .f32⟩ : BufTy).Contents (Elt F)),
    StableHlo.nullary main_c_8 (constantI S_ 32 0#32),
    StableHlo.unary main_c_8 main_v35 (broadcastInDim S640000 ![] bcast_S_S640000 : (⟨S_, .i32⟩ : BufTy).Contents (Elt F) → (⟨S640000, .i32⟩ : BufTy).Contents (Elt F)),
    StableHlo.binary main_v3 main_v35 main_v36 (cmpi .slt : (⟨S640000, .i32⟩ : BufTy).Contents (Elt F) → (⟨S640000, .i32⟩ : BufTy).Contents (Elt F) → (⟨S640000, .i1⟩ : BufTy).Contents (Elt F)),
    StableHlo.nullary main_c_9 (constantI S_ 32 50000#32),
    StableHlo.unary main_c_9 main_v37 (broadcastInDim S640000 ![] bcast_S_S640000 : (⟨S_, .i32⟩ : BufTy).Contents (Elt F) → (⟨S640000, .i32⟩ : BufTy).Contents (Elt F)),
    StableHlo.binary main_v3 main_v37 main_v38 (addi : (⟨S640000, .i32⟩ : BufTy).Contents (Elt F) → (⟨S640000, .i32⟩ : BufTy).Contents (Elt F) → (⟨S640000, .i32⟩ : BufTy).Contents (Elt F)),
    StableHlo.ternary main_v36 main_v38 main_v3 main_v39 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v39 main_v40 (broadcastInDim S640000x1 ![0] bcast_S640000_S640000x1_0 : (⟨S640000, .i32⟩ : BufTy).Contents (Elt F) → (⟨S640000x1, .i32⟩ : BufTy).Contents (Elt F)),
    StableHlo.binary main_v33 main_v40 main_v41 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_v34 main_v42 (broadcastInDim S640000x128 ![0, 1] bcast_S640000x1_S640000x128_0_1 : (⟨S640000x1, .f32⟩ : BufTy).Contents (Elt F) → (⟨S640000x128, .f32⟩ : BufTy).Contents (Elt F)),
    StableHlo.binary main_v42 main_v41 main_v43 (mulf : (⟨S640000x128, .f32⟩ : BufTy).Contents (Elt F) → (⟨S640000x128, .f32⟩ : BufTy).Contents (Elt F) → (⟨S640000x128, .f32⟩ : BufTy).Contents (Elt F)),
    StableHlo.nullary main_cst_10 (constant S_ .f32 0x00000000#32),
    StableHlo.unary main_cst_10 main_v44 (broadcastInDim S50000x128 ![] bcast_S_S50000x128 : (⟨S_, .f32⟩ : BufTy).Contents (Elt F) → (⟨S50000x128, .f32⟩ : BufTy).Contents (Elt F)),
    StableHlo.unary main_v1 main_v45 (broadcastInDim S640000x1 ![0] bcast_S640000_S640000x1_0 : (⟨S640000, .i32⟩ : BufTy).Contents (Elt F) → (⟨S640000x1, .i32⟩ : BufTy).Contents (Elt F)),
    StableHlo.ternary main_v44 main_v45 main_v43 main_v46 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.unary main_v32 main_v47 (broadcastInDim S50000x128 ![0, 1] bcast_S50000x1_S50000x128_0_1 : (⟨S50000x1, .f32⟩ : BufTy).Contents (Elt F) → (⟨S50000x128, .f32⟩ : BufTy).Contents (Elt F)),
    StableHlo.binary main_v47 main_v46 main_v48 (mulf : (⟨S50000x128, .f32⟩ : BufTy).Contents (Elt F) → (⟨S50000x128, .f32⟩ : BufTy).Contents (Elt F) → (⟨S50000x128, .f32⟩ : BufTy).Contents (Elt F)),
    StableHlo.unary main_v27 main_v49 (broadcastInDim S640000x1 ![0] bcast_S640000_S640000x1_0 : (⟨S640000, .f32⟩ : BufTy).Contents (Elt F) → (⟨S640000x1, .f32⟩ : BufTy).Contents (Elt F)),
    StableHlo.nullary main_c_11 (constantI S_ 32 0#32),
    StableHlo.unary main_c_11 main_v50 (broadcastInDim S640000 ![] bcast_S_S640000 : (⟨S_, .i32⟩ : BufTy).Contents (Elt F) → (⟨S640000, .i32⟩ : BufTy).Contents (Elt F)),
    StableHlo.binary main_v3 main_v50 main_v51 (cmpi .slt : (⟨S640000, .i32⟩ : BufTy).Contents (Elt F) → (⟨S640000, .i32⟩ : BufTy).Contents (Elt F) → (⟨S640000, .i1⟩ : BufTy).Contents (Elt F)),
    StableHlo.nullary main_c_12 (constantI S_ 32 50000#32),
    StableHlo.unary main_c_12 main_v52 (broadcastInDim S640000 ![] bcast_S_S640000 : (⟨S_, .i32⟩ : BufTy).Contents (Elt F) → (⟨S640000, .i32⟩ : BufTy).Contents (Elt F)),
    StableHlo.binary main_v3 main_v52 main_v53 (addi : (⟨S640000, .i32⟩ : BufTy).Contents (Elt F) → (⟨S640000, .i32⟩ : BufTy).Contents (Elt F) → (⟨S640000, .i32⟩ : BufTy).Contents (Elt F)),
    StableHlo.ternary main_v51 main_v53 main_v3 main_v54 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v54 main_v55 (broadcastInDim S640000x1 ![0] bcast_S640000_S640000x1_0 : (⟨S640000, .i32⟩ : BufTy).Contents (Elt F) → (⟨S640000x1, .i32⟩ : BufTy).Contents (Elt F)),
    StableHlo.binary main_arg1 main_v55 main_v56 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.unary main_v49 main_v57 (broadcastInDim S640000x128 ![0, 1] bcast_S640000x1_S640000x128_0_1 : (⟨S640000x1, .f32⟩ : BufTy).Contents (Elt F) → (⟨S640000x128, .f32⟩ : BufTy).Contents (Elt F)),
    StableHlo.binary main_v57 main_v56 main_v58 (mulf : (⟨S640000x128, .f32⟩ : BufTy).Contents (Elt F) → (⟨S640000x128, .f32⟩ : BufTy).Contents (Elt F) → (⟨S640000x128, .f32⟩ : BufTy).Contents (Elt F)),
    StableHlo.nullary main_cst_13 (constant S_ .f32 0x00000000#32),
    StableHlo.unary main_cst_13 main_v59 (broadcastInDim S50000x128 ![] bcast_S_S50000x128 : (⟨S_, .f32⟩ : BufTy).Contents (Elt F) → (⟨S50000x128, .f32⟩ : BufTy).Contents (Elt F)),
    StableHlo.unary main_v1 main_v60 (broadcastInDim S640000x1 ![0] bcast_S640000_S640000x1_0 : (⟨S640000, .i32⟩ : BufTy).Contents (Elt F) → (⟨S640000x1, .i32⟩ : BufTy).Contents (Elt F)),
    StableHlo.ternary main_v59 main_v60 main_v58 main_v61 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]

/-- The whole line. -/
abbrev ops : List (HloOp τ sig (Elt F)) := opsAB ++ opsC

set_option maxRecDepth 16384 in
theorem opsAB_eq : (opsAB : List (HloOp τ sig (Elt F))) = opsA ++ opsB := rfl

set_option maxRecDepth 16384 in
set_option maxHeartbeats 4000000 in
theorem main_part0_eq (c : Dev nD) : main_part0 (F := F) c = seq opsA := rfl

set_option maxRecDepth 16384 in
set_option maxHeartbeats 4000000 in
theorem main_part1_eq (c : Dev nD) : main_part1 (F := F) c = seq (opsB ++ opsC) := rfl

theorem main_eq (c : Dev nD) : main (F := F) c = seq ops := by
  show main (F := F) c = seq (opsAB ++ opsC)
  rw [opsAB_eq, List.append_assoc, seq_append opsA, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., unary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
set_option maxRecDepth 8192 in
theorem opsB_sub : (opsB : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
set_option maxRecDepth 8192 in
theorem opsC_sub : (opsC : List (HloOp τ sig (Elt F))).Forall fun op => op.bufs ⊆ tcRefs τ sig :=
  ⟨binary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., unary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    rw [show (ops : List (HloOp τ sig (Elt F))) = opsAB ++ opsC from rfl, opsAB_eq] at h
    simp only [List.mem_append] at h
    rcases h with (h | h) | h
    exacts [List.forall_iff_forall_mem.mp opsA_sub op h, List.forall_iff_forall_mem.mp opsB_sub op h,
      List.forall_iff_forall_mem.mp opsC_sub op h]

theorem opsA_fresh : (opsA : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor
theorem opsC_fresh : (opsC : List (HloOp τ sig (Elt F))).Forall fun op => op.fresh = ∅ := by
  simp only [List.Forall]; repeat' constructor
theorem ops_fresh : ∀ op ∈ (ops : List (HloOp τ sig (Elt F))), op.fresh = ∅ := fun op h => by
  rw [show (ops : List (HloOp τ sig (Elt F))) = opsAB ++ opsC from rfl, opsAB_eq] at h
  simp only [List.mem_append] at h
  rcases h with (h | h) | h
  exacts [List.forall_iff_forall_mem.mp opsA_fresh op h, List.forall_iff_forall_mem.mp opsB_fresh op h,
    List.forall_iff_forall_mem.mp opsC_fresh op h]

/-- Every weakly fair execution of the reference terminates, and every final state has each buffer at the fold of
    the line's operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Line

end
-- ==== Proof.LibAfterAppend.lean ====
/-
  The buffer contents after two stretches of host operations run one after the other are the contents after the
  second stretch, taken from the contents after the first.
-/
import Idealize.ShloMosaic.Lib.StableHlo.Run

namespace Cert.Lib

open Idealize.ShloMosaic Idealize.ShloMosaic.StableHlo

variable {τ : Topo} {sig : RefSig} {Val : EltTy → Type}

/-- The fold of a concatenation of operation lists is the fold of the second list from the fold of the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib
-- ==== Proof.RefValue.lean ====
/-
  The reference's result as a function of its arguments.

  The line of host operations is read in two steps. Its closing stretch — the quotient, `nan_to_num`, the product
  with the transposed weights, the bias — takes whatever contents the numerator's, the denominator's, the weights' and
  the bias's buffers hold and leaves the masked-ratio layer of them. The stretches before it leave the numerator and
  the denominator of the edge list, the features and the mask in those two buffers, and never write an argument.
-/
import proofs.«131859_j56255481643188_1_alg».proof.Proof.RefLine
import proofs.«131859_j56255481643188_1_alg».proof.Proof.Prefix
import proofs.«131859_j56255481643188_1_alg».proof.Proof.LibAfterAppend
import Idealize.ShloMosaic.Lib.ValueIdx

noncomputable section

namespace Cert.ReferenceIdeal.Whole

open Cert.ReferenceIdeal Cert.ReferenceIdeal.Line Idealize.ShloMosaic Idealize.ShloMosaic.TcCoe Idealize.SL.Sem
open Idealize.ShloMosaic.StableHlo Idealize.ShloMosaic.ValueIdx
open Cert.ReferenceIdeal.Facts₀

variable {F : FTy → Type} [FloatOps F]

/-- A valuation's contents at the buffers the closing stretch reads, and at the arguments, with their tensor types. -/
abbrev atNum (W : Valuation τ sig (Elt F)) : FVec F S50000x128 .f32 := W (main_v48 : DevRef τ sig)
abbrev atDen (W : Valuation τ sig (Elt F)) : FVec F S50000x128 .f32 := W (main_v61 : DevRef τ sig)
abbrev atX (W : Valuation τ sig (Elt F)) : FVec F S50000x128 .f32 := W (main_arg0 : DevRef τ sig)
abbrev atMask (W : Valuation τ sig (Elt F)) : FVec F S50000x128 .f32 := W (main_arg1 : DevRef τ sig)
abbrev atEdges (W : Valuation τ sig (Elt F)) : IVec S2x640000 32 := W (main_arg2 : DevRef τ sig)
abbrev atW (W : Valuation τ sig (Elt F)) : FVec F S128x128 .f32 := W (main_arg3 : DevRef τ sig)
abbrev atBias (W : Valuation τ sig (Elt F)) : FVec F S128 .f32 := W (main_arg4 : DevRef τ sig)

/-- The transposed weights. -/
abbrev wT (w : FVec Ideal S128x128 .f32) : FVec Ideal S128x128 .f32 := transpose S128x128 [1, 0] w transposes_S128x128_S128x128_1_0

set_option maxRecDepth 100000 in
set_option maxHeartbeats 4000000 in
/-- The closing stretch leaves the masked-ratio layer of the four buffers' contents. -/
theorem tail_eq (W : Valuation τ sig (Elt Ideal)) :
    (after opsC W (main_v68 : DevRef τ sig) : FVec Ideal S50000x128 .f32)
      = Cert.Ratio.layer (A := 50000) (K := 128) (B := 128) (atNum W) (atDen W) (wT (atW W)) (atBias W) := by
  have e : (after opsC W (main_v68 : DevRef τ sig) : FVec Ideal S50000x128 .f32)
      = addf (F := Ideal) (Host.dotGeneral (F := Ideal) dot_S50000x128_S128x128_S50000x128_1_0_0_1_n_n none
            (Cert.Ratio.hostClean bcast_S_S50000x128 (Host.divf (F := Ideal) (atNum W) (atDen W))) (wT (atW W)))
          (broadcastInDim S50000x128 ![0, 1] bcast_S1x128_S50000x128_0_1
            (broadcastInDim S1x128 ![1] bcast_S128_S1x128_1 (atBias W))) := by
    after_results_simp
    simp only [TRef.toBuf, TRef.ofBuf, cast_eq, id]
    rfl
  rw [e]
  funext i
  obtain ⟨p, q, rfl⟩ : ∃ (p : Fin 50000) (q : Fin 128), i = ix2 p q := ⟨i 0, i 1, eq_ix2 i⟩
  rw [Cert.Ratio.layer_apply]
  exact Cert.Ratio.host_apply (A := 50000) (K := 128) (B := 128) dot_S50000x128_S128x128_S50000x128_1_0_0_1_n_n_wf
    bcast_S_S50000x128 bcast_S128_S1x128_1 bcast_S1x128_S50000x128_0_1 (atNum W) (atDen W) (wT (atW W)) (atBias W) p q

set_option maxRecDepth 100000 in
set_option maxHeartbeats 40000000 in
/-- Before the closing stretch the numerator's buffer holds the numerator of the arguments, in any float model: the
    stretch is the numerator's definition, operation by operation. -/
theorem pre_num (V : Valuation τ sig (Elt F)) :
    atNum (after opsAB V) = Cert.Pre.num (atX V) (atMask V) (atEdges V) := by
  show (after opsAB V (main_v48 : DevRef τ sig) : FVec F S50000x128 .f32) = _
  after_results_simp
  simp only [TRef.toBuf, TRef.ofBuf, cast_eq, id]
  rfl

set_option maxRecDepth 100000 in
set_option maxHeartbeats 40000000 in
/-- And the denominator's buffer the denominator. -/
theorem pre_den (V : Valuation τ sig (Elt F)) :
    atDen (after opsAB V) = Cert.Pre.den (atMask V) (atEdges V) := by
  show (after opsAB V (main_v61 : DevRef τ sig) : FVec F S50000x128 .f32) = _
  after_results_simp
  simp only [TRef.toBuf, TRef.ofBuf, cast_eq, id]
  rfl

/-! ## The arguments are never written -/

set_option maxRecDepth 100000 in
set_option maxHeartbeats 4000000 in
theorem kept_arg0 (V : Valuation τ sig (Elt Ideal)) : after ops V (main_arg0 : DevRef τ sig) = V (main_arg0 : DevRef τ sig) :=
  after_of_forall_not_mem (b := Proc.devRef .tc main_arg0) _ _ (List.forall_iff_forall_mem.mp (by
    simp only [ops, opsAB, opsC, List.cons_append, List.nil_append, List.Forall, nullary_writes, unary_writes, binary_writes, ternary_writes,
      reshape_writes, Finset.mem_singleton]
    repeat' apply And.intro
    all_goals exact devRef_ne_of_ne (by decide)))

set_option maxRecDepth 100000 in
set_option maxHeartbeats 4000000 in
theorem kept_arg1 (V : Valuation τ sig (Elt Ideal)) : after ops V (main_arg1 : DevRef τ sig) = V (main_arg1 : DevRef τ sig) :=
  after_of_forall_not_mem (b := Proc.devRef .tc main_arg1) _ _ (List.forall_iff_forall_mem.mp (by
    simp only [ops, opsAB, opsC, List.cons_append, List.nil_append, List.Forall, nullary_writes, unary_writes, binary_writes, ternary_writes,
      reshape_writes, Finset.mem_singleton]
    repeat' apply And.intro
    all_goals exact devRef_ne_of_ne (by decide)))

set_option maxRecDepth 100000 in
set_option maxHeartbeats 4000000 in
theorem kept_arg2 (V : Valuation τ sig (Elt Ideal)) : after ops V (main_arg2 : DevRef τ sig) = V (main_arg2 : DevRef τ sig) :=
  after_of_forall_not_mem (b := Proc.devRef .tc main_arg2) _ _ (List.forall_iff_forall_mem.mp (by
    simp only [ops, opsAB, opsC, List.cons_append, List.nil_append, List.Forall, nullary_writes, unary_writes, binary_writes, ternary_writes,
      reshape_writes, Finset.mem_singleton]
    repeat' apply And.intro
    all_goals exact devRef_ne_of_ne (by decide)))

set_option maxRecDepth 100000 in
set_option maxHeartbeats 4000000 in
theorem kept_arg3 (V : Valuation τ sig (Elt Ideal)) : after ops V (main_arg3 : DevRef τ sig) = V (main_arg3 : DevRef τ sig) :=
  after_of_forall_not_mem (b := Proc.devRef .tc main_arg3) _ _ (List.forall_iff_forall_mem.mp (by
    simp only [ops, opsAB, opsC, List.cons_append, List.nil_append, List.Forall, nullary_writes, unary_writes, binary_writes, ternary_writes,
      reshape_writes, Finset.mem_singleton]
    repeat' apply And.intro
    all_goals exact devRef_ne_of_ne (by decide)))

set_option maxRecDepth 100000 in
set_option maxHeartbeats 4000000 in
theorem kept_arg4 (V : Valuation τ sig (Elt Ideal)) : after ops V (main_arg4 : DevRef τ sig) = V (main_arg4 : DevRef τ sig) :=
  after_of_forall_not_mem (b := Proc.devRef .tc main_arg4) _ _ (List.forall_iff_forall_mem.mp (by
    simp only [ops, opsAB, opsC, List.cons_append, List.nil_append, List.Forall, nullary_writes, unary_writes, binary_writes, ternary_writes,
      reshape_writes, Finset.mem_singleton]
    repeat' apply And.intro
    all_goals exact devRef_ne_of_ne (by decide)))

set_option maxRecDepth 100000 in
set_option maxHeartbeats 4000000 in
theorem keptAB_arg3 (V : Valuation τ sig (Elt Ideal)) : after opsAB V (main_arg3 : DevRef τ sig) = V (main_arg3 : DevRef τ sig) :=
  after_of_forall_not_mem (b := Proc.devRef .tc main_arg3) _ _ (List.forall_iff_forall_mem.mp (by
    simp only [opsAB, List.cons_append, List.nil_append, List.Forall, nullary_writes, unary_writes, binary_writes, ternary_writes,
      reshape_writes, Finset.mem_singleton]
    repeat' apply And.intro
    all_goals exact devRef_ne_of_ne (by decide)))

set_option maxRecDepth 100000 in
set_option maxHeartbeats 4000000 in
theorem keptAB_arg4 (V : Valuation τ sig (Elt Ideal)) : after opsAB V (main_arg4 : DevRef τ sig) = V (main_arg4 : DevRef τ sig) :=
  after_of_forall_not_mem (b := Proc.devRef .tc main_arg4) _ _ (List.forall_iff_forall_mem.mp (by
    simp only [opsAB, List.cons_append, List.nil_append, List.Forall, nullary_writes, unary_writes, binary_writes, ternary_writes,
      reshape_writes, Finset.mem_singleton]
    repeat' apply And.intro
    all_goals exact devRef_ne_of_ne (by decide)))

/-! ## The result -/

/-- After the whole line the result buffer holds `Cert.Pre.out` of the five arguments. -/
theorem value (V : Valuation τ sig (Elt Ideal)) :
    (after ops V (main_v68 : DevRef τ sig) : FVec Ideal S50000x128 .f32)
      = Cert.Pre.out (atX V) (atMask V) (atEdges V) (atW V) (atBias V) := by
  show (after (opsAB ++ opsC) V (main_v68 : DevRef τ sig) : FVec Ideal S50000x128 .f32) = _
  rw [Cert.Lib.after_append, tail_eq, pre_num, pre_den]
  show Cert.Ratio.layer _ _ (wT (after opsAB V (main_arg3 : DevRef τ sig))) (after opsAB V (main_arg4 : DevRef τ sig)) = _
  rw [keptAB_arg3, keptAB_arg4]
  rfl

end Cert.ReferenceIdeal.Whole

end
-- ==== Proof.RefRun.lean ====
/-
  The reference's run, read: its result ends at `Cert.Pre.out` of the five arguments, which it leaves unchanged.
-/
import proofs.«131859_j56255481643188_1_alg».proof.Proof.RefValue

noncomputable section

namespace Cert.ReferenceIdeal.Read

open Cert.ReferenceIdeal Cert.ReferenceIdeal.Line Cert.ReferenceIdeal.Whole
open Idealize.ShloMosaic Idealize.ShloMosaic.TcCoe Idealize.SL.Sem Idealize.ShloMosaic.StableHlo

variable (m : (ℓ : Loc nD τ sig) → Buf (Elt Ideal) ℓ) (ρ : Dev nD → PrngReg)

/-- The five arguments as launched, with their tensor types. -/
abbrev xOf (c : Dev nD) : FVec Ideal S50000x128 .f32 := m ((c.tc : Thread nD τ).loc main_arg0)
abbrev maskOf (c : Dev nD) : FVec Ideal S50000x128 .f32 := m ((c.tc : Thread nD τ).loc main_arg1)
abbrev edgesOf (c : Dev nD) : IVec S2x640000 32 := m ((c.tc : Thread nD τ).loc main_arg2)
abbrev wOf (c : Dev nD) : FVec Ideal S128x128 .f32 := m ((c.tc : Thread nD τ).loc main_arg3)
abbrev biasOf (c : Dev nD) : FVec Ideal S128 .f32 := m ((c.tc : Thread nD τ).loc main_arg4)

/-- Every weakly fair execution of the reference terminates with its result at the joint specification of the
    arguments and the arguments unchanged. -/
theorem run : θ_run defs (onTc (τ := τ) (main (F := Ideal))) ⟨m, fun _ => 0, ρ⟩ fun r => ∀ c : Dev nD,
      r.2.mem ((c.tc : Thread nD τ).loc main_v68) = Cert.Pre.out (xOf m c) (maskOf m c) (edgesOf m c) (wOf m c) (biasOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c main_v68).trans (value (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c))⟩)
    (run_main (F := Ideal) m ρ)

end Cert.ReferenceIdeal.Read

end
-- ==== Proof.lean ====
/-
  The kernel against its reference: a masked-ratio graph layer.

  Both programs take node features x and a mask (50000 × 128), an edge list (2 × 640000), a weight matrix W (128 × 128)
  and a bias b (128). With the same host operations they form the edge weights of the symmetrically normalised
  adjacency, the numerator  rowsum · A (mask · nan_to_num x)  and the denominator  A mask.  The reference then computes
  nan_to_num (numerator / denominator) · Wᵀ + b  on the host; the kernel computes the same layer in one region over ten
  blocks of 5000 rows, with the transposed weights formed on the host and the two operands of its product narrowed to
  bf16.  On the extended reals a change of float format is the identity, a product into a zero accumulator and a host
  product are the same sum over the 128 contraction positions, and `nan_to_num` is the same three compare-and-select
  steps in both spellings; a row of the layer reads only that row of the numerator and the denominator, so the ten
  blocks are the rows of the one whole-array function.  No step uses distributivity or cancellation, so the
  precondition (finite inputs) is never opened.

  The frames of the two kernel programs are the generated ones; the reference's frame is its run with the result
  dropped.  The idealization rewrote no operation, so there is nothing to preserve.  Both runs are posted at the one
  function `Cert.Pre.out` of the five arguments, and the arguments agree.
-/
import proofs.«131859_j56255481643188_1_alg».proof.Defs
import proofs.«131859_j56255481643188_1_alg».proof.Proof.Gen.Kernel
import proofs.«131859_j56255481643188_1_alg».proof.Proof.Gen.Kernel.Frame
import proofs.«131859_j56255481643188_1_alg».proof.Proof.Gen.KernelIdeal
import proofs.«131859_j56255481643188_1_alg».proof.Proof.Gen.KernelIdeal.Frame
import proofs.«131859_j56255481643188_1_alg».proof.Proof.Gen.KernelIdeal.Value
import proofs.«131859_j56255481643188_1_alg».proof.Proof.Gen.ReferenceIdeal
import proofs.«131859_j56255481643188_1_alg».proof.Proof.Gen.Pre_finite_inputs
import proofs.«131859_j56255481643188_1_alg».proof.Proof.KernelRun
import proofs.«131859_j56255481643188_1_alg».proof.Proof.RefRun

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Read.run m ρ)

theorem preserves : Cert.preserves_Kernel_KernelIdeal := trivial

set_option maxRecDepth 100000 in
/-- Both runs end at `Cert.Pre.out` of their arguments, and the arguments agree. -/
theorem algebraic : Cert.algebraic_KernelIdeal_ReferenceIdeal := by
  intro m ρ m' ρ' _ hagree
  refine ⟨fun c => Cert.Pre.out (Cert.KernelIdeal.Entry.xOf m c) (Cert.KernelIdeal.Entry.maskOf m c)
    (Cert.KernelIdeal.Entry.edgesOf m c) (Cert.KernelIdeal.Entry.wOf m c) (Cert.KernelIdeal.Entry.biasOf m c),
    Cert.KernelIdeal.Read.run m ρ, ?_⟩
  refine (θ_run Cert.ReferenceIdeal.defs _ _).mono (fun r h c => ⟨(h c).1.trans ?_, (h c).2⟩)
    (Cert.ReferenceIdeal.Read.run m' ρ')
  show Cert.Pre.out (Cert.ReferenceIdeal.Read.xOf m' c) (Cert.ReferenceIdeal.Read.maskOf m' c)
      (Cert.ReferenceIdeal.Read.edgesOf m' c) (Cert.ReferenceIdeal.Read.wOf m' c) (Cert.ReferenceIdeal.Read.biasOf m' c)
    = Cert.Pre.out (Cert.KernelIdeal.Entry.xOf m c) (Cert.KernelIdeal.Entry.maskOf m c)
      (Cert.KernelIdeal.Entry.edgesOf m c) (Cert.KernelIdeal.Entry.wOf m c) (Cert.KernelIdeal.Entry.biasOf m c)
  have e0 : Cert.ReferenceIdeal.Read.xOf m' c = Cert.KernelIdeal.Entry.xOf m c := (hagree c).1
  have e1 : Cert.ReferenceIdeal.Read.maskOf m' c = Cert.KernelIdeal.Entry.maskOf m c := (hagree c).2.1
  have e2 : Cert.ReferenceIdeal.Read.edgesOf m' c = Cert.KernelIdeal.Entry.edgesOf m c := (hagree c).2.2.1
  have e3 : Cert.ReferenceIdeal.Read.wOf m' c = Cert.KernelIdeal.Entry.wOf m c := (hagree c).2.2.2.1
  have e4 : Cert.ReferenceIdeal.Read.biasOf m' c = Cert.KernelIdeal.Entry.biasOf m c := (hagree c).2.2.2.2
  rw [e0, e1, e2, e3, e4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
